-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x256 : Shape := ⟨2, ![3, 256]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256x256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_v48 main_v49 main_v50

def fn_part1 {F : FTy → Type} [FloatOps F] (main_arg5 : FVec F S3x256 .f32) (main_arg6 : FVec F S128x256 .f32) (main_arg7 : FVec F S128x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S3x256 .f32) (main_arg3 : FVec F S3x256 .f32) (main_arg4 : FVec F S3x256 .f32) (main_arg5 : FVec F S3x256 .f32) (main_arg6 : FVec F S128x256 .f32) (main_arg7 : FVec F S128x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x256 .f32 := Host.absf main_arg2
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S3x256 : Shape := ⟨2, ![3, 256]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩

abbrev nBuf : Space → Nat
  | .hbm => 113
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S128x256, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S256, .f32⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S256, .f32⟩
  | .hbm, ⟨78, _⟩ => ⟨S1x256, .f32⟩
  | .hbm, ⟨79, _⟩ => ⟨S256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S50000x256, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x256, .f32⟩
  | .hbm, ⟨95, _⟩ => ⟨S_, .f32⟩
  | .hbm, ⟨96, _⟩ => ⟨S50000x256, .f32⟩
  | .hbm, ⟨97, _⟩ => ⟨S800000x1, .i32⟩
  | .hbm, ⟨98, _⟩ => ⟨S50000x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S256, .f32⟩
  | .hbm, ⟨103, _⟩ => ⟨S1x256, .f32⟩
  | .hbm, ⟨104, _⟩ => ⟨S256, .f32⟩
  | .hbm, ⟨105, _⟩ => ⟨S1x256, .f32⟩
  | .hbm, ⟨106, _⟩ => ⟨S256, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S1x256, .f32⟩
  | .hbm, ⟨111, _⟩ => ⟨S1x256, .f32⟩
  | .hbm, ⟨112, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x1, .f32⟩
  | .local _ .vmem, ⟨33, _⟩ => ⟨S2000x1, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S256x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_8 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S3x256_S1x256_0_0 : S3x256.Slices ![0, 0] S1x256
  shapeCasts_S1x256_S256 : S1x256.ShapeCasts S256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S3x256_S1x256_1_0 : S3x256.Slices ![1, 0] S1x256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  slices_S3x256_S1x256_2_0 : S3x256.Slices ![2, 0] S1x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S50000x256.size a
  hwx2_10 : ∀ i : grid2.Coords, EltTy.bits .f32 = 32 ∨ (Rect.block (s := S50000x256) S2000x256.size (cc2_transform_10 i) (hinb2_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v59) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v70) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v82) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v83) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v84) S2000x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x256 : Shape := ⟨2, ![3, 256]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S800000x128 : Shape := ⟨2, ![800000, 128]⟩
abbrev S50000x256 : Shape := ⟨2, ![50000, 256]⟩
abbrev S800000x256 : Shape := ⟨2, ![800000, 256]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x800000, .i32⟩
  | 2 => ⟨S3x256, .f32⟩
  | 3 => ⟨S3x256, .f32⟩
  | 4 => ⟨S3x256, .f32⟩
  | 5 => ⟨S3x256, .f32⟩
  | 6 => ⟨S128x256, .f32⟩
  | 7 => ⟨S128x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256x256, .f32⟩
  | 14 => ⟨S256, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S1x256, .f32⟩
  | 30 => ⟨S256, .f32⟩
  | 31 => ⟨S1x256, .f32⟩
  | 32 => ⟨S256, .f32⟩
  | 33 => ⟨S1x256, .f32⟩
  | 34 => ⟨S256, .f32⟩
  | 35 => ⟨S1x256, .f32⟩
  | 36 => ⟨S256, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S50000x128, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S256, .f32⟩
  | 63 => ⟨S256, .f32⟩
  | 64 => ⟨S256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S1x256, .f32⟩
  | 78 => ⟨S256, .f32⟩
  | 79 => ⟨S1x256, .f32⟩
  | 80 => ⟨S256, .f32⟩
  | 81 => ⟨S1x256, .f32⟩
  | 82 => ⟨S256, .f32⟩
  | 83 => ⟨S1x256, .f32⟩
  | 84 => ⟨S256, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S50000x256, .f32⟩
  | 99 => ⟨S50000x256, .f32⟩
  | 100 => ⟨S50000x256, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S256, .f32⟩
  | 111 => ⟨S256, .f32⟩
  | 112 => ⟨S256, .f32⟩
  | 113 => ⟨S1x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S1x256, .f32⟩
  | 126 => ⟨S256, .f32⟩
  | 127 => ⟨S1x256, .f32⟩
  | _ => ⟨S50000x128, .f32⟩

abbrev hbmTy0_1 (i : Nat) : BufTy := match i % 128 with
  | 0 => ⟨S256, .f32⟩
  | 1 => ⟨S1x256, .f32⟩
  | 2 => ⟨S256, .f32⟩
  | 3 => ⟨S1x256, .f32⟩
  | 4 => ⟨S256, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S50000x256, .f32⟩
  | 19 => ⟨S50000x256, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S1x256, .f32⟩
  | 27 => ⟨S50000x256, .f32⟩
  | 28 => ⟨S50000x256, .f32⟩
  | 29 => ⟨S_, .f32⟩
  | 30 => ⟨S256, .f32⟩
  | 31 => ⟨S256, .f32⟩
  | 32 => ⟨S256, .f32⟩
  | 33 => ⟨S1x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_5 : Ref sig .tc := ⟨.hbm, 85, rfl⟩
abbrev main_v61 : Ref sig .tc := ⟨.hbm, 86, rfl⟩
abbrev main_v62 : Ref sig .tc := ⟨.hbm, 87, rfl⟩
abbrev main_c_6 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_8 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call1_cst : Ref sig .tc := ⟨.hbm, 122, rfl⟩
abbrev main_call1_v0 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_9 : Ref sig .tc := ⟨.hbm, 133, rfl⟩
abbrev main_v103 : Ref sig .tc := ⟨.hbm, 134, rfl⟩
abbrev main_v104 : Ref sig .tc := ⟨.hbm, 135, rfl⟩
abbrev main_c_10 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_11 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_12 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_call2_cst : Ref sig .tc := ⟨.hbm, 170, rfl⟩
abbrev main_call2_v0 : Ref sig .tc := ⟨.hbm, 171, rfl⟩
abbrev main_v136 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256_S1x256_0_0 : S3x256.Slices ![0, 0] S1x256
  shapeCasts_S1x256_S256 : S1x256.ShapeCasts S256
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  slices_S3x256_S1x256_1_0 : S3x256.Slices ![1, 0] S1x256
  bcast_S50000x1_S50000x256_0_1 : S50000x1.BroadcastsInDim S50000x256 (![0, 1] : Fin 2 → Fin S50000x256.rank)
  slices_S3x256_S1x256_2_0 : S3x256.Slices ![2, 0] S1x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with every buffer's final contents kept.

  @main is three kernel regions between stretches of host operations. Running it from any memory, every weakly fair
  execution terminates without a fault, and each buffer that lives for the whole of @main ends holding the
  contents obtained by folding the segments in order from the launch memory: a stretch of host operations applies its
  operations, a region replaces each of its arrays by what its grid's write-backs leave. The result array is one of
  those buffers, so its final contents are that fold read at the result's reference.
-/
import proofs.«175303_j45896020525700_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives the regions ends
    at the fold of the segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, keeping the result array and the fifteen argument arrays: the result ends at the fold read at
    the result's reference, every argument ends as launched. -/
theorem run_result : θ_run defs (onTc (τ := τ) (main (F := F))) ⟨m, fun _ => 0, ρ⟩ (fun r => ∀ c : Dev nD,
      r.2.mem ((c.tc : Thread nD τ).loc main_v84) = W6 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v84 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)
    (run_all m ρ)

end Cert.KernelIdeal.WholeRun

end
-- ==== Proof.LayerSpec.lean ====
/-
  One output entry of a mean-aggregation graph layer followed by a per-channel affine normalisation and a clamp at
  zero, as a function on the extended reals, and the array of all entries.

  For a node r and an output channel q, with a(k) the already-scaled neighbour sum of input channel k at r, h(k) the
  node's own feature, wl(k) and wr(k) the two weight columns of q, and b, g, bt, rm, rv the channel's bias, scale,
  shift, running mean and running variance:

      entry = max( (((Σ_k a(k)·wl(k) + Σ_k h(k)·wr(k)) + b) − rm) · rsqrt(rv + ε) · g + bt , 0 ).

  The neighbour sum is scaled by the reciprocal of d = max(s, 1), s the number of edges that end at r. One program
  multiplies by 1/d, the other divides by d; the two agree on every extended real because d ≥ 1 is never zero, so
  both are the product with d⁻¹ (no finiteness of the sum is needed).
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx
open scoped BigOperators

/-- The float words the two programs share: 1.0, the variance offset ε (the float nearest 1e-5) and 0.0. -/
abbrev one : EReal := Ideal.ofBits .f32 0x3F800000#32
abbrev eps : EReal := Ideal.ofBits .f32 0x3727C5AC#32
abbrev zero : EReal := Ideal.ofBits .f32 0x00000000#32

/-- The word 0x3F800000 denotes the real number 1. -/
theorem one_eq : one = 1 := by
  simp [one, Ideal.ofBits, Ideal.ieee]
  first
    | (rw [← EReal.coe_mul, ← EReal.coe_one, EReal.coe_eq_coe_iff]; norm_num)
    | (norm_cast; norm_num)
    | (exact_mod_cast (by norm_num : (8388608 : ℝ) * ((2 : ℝ) ^ 23)⁻¹ = 1))

/-- One output entry from the scaled neighbour sums `a`, the node's features `hrow`, the two weight columns and the
    channel's five numbers. -/
def entry {K : ℕ} (a hrow wl wr : Fin K → EReal) (b g bt rm rv : EReal) : EReal :=
  max (((((∑ k, a k * wl k) + (∑ k, hrow k * wr k)) + b) - rm) * Ideal.rsqrt (rv + eps) * g + bt) zero

/-- The reciprocal of the clamped in-degree: 1 / max(s, 1). -/
def invDeg (s : EReal) : EReal := Ideal.div one (max s one)

/-- Dividing by d = max(s, 1) is multiplying by 1/d, for every extended real numerator: d ≥ 1 is not zero, so both
    sides are the product with d⁻¹. -/
theorem div_deg (a s : EReal) : Ideal.div a (max s one) = a * invDeg s := by
  have hd : max s one ≠ 0 := by
    have h1 : (0 : EReal) < one := by rw [one_eq]; exact zero_lt_one
    exact (lt_of_lt_of_le h1 (le_max_right s one)).ne'
  unfold invDeg Ideal.div
  rw [if_neg hd, if_neg hd, one_eq, one_mul]

/-- A two-axis array of extended reals of the given extents, and a one-axis one. -/
abbrev Arr (n0 n1 : ℕ) : Type := (⟨2, ![n0, n1]⟩ : Shape).Idx → EReal
abbrev Arr1 (n : ℕ) : Type := (⟨1, ![n]⟩ : Shape).Idx → EReal

/-- The layer's whole output [50000, 256]: entry (r, q) from row r of the neighbour sums `agg` scaled by the
    reciprocal in-degree of r (from the edge counts `s`), row r of the features `h`, column q of the two weight
    matrices, the bias `b` at q and row `l` of the four per-layer parameter tables at q. -/
def layer {K : ℕ} (agg h : Arr 50000 K) (s : Arr1 50000) (Wl Wr : Arr K 256) (b : Arr1 256)
    (gam bet rmean rvar : Arr 3 256) (l : Fin 3) : Arr 50000 256 :=
  fun i => entry (fun k => agg (ix2 (i 0) k) * invDeg (s (ix1 (i 0)))) (fun k => h (ix2 (i 0) k))
    (fun k => Wl (ix2 k (i 1))) (fun k => Wr (ix2 k (i 1))) (b (ix1 (i 1)))
    (gam (ix2 l (i 1))) (bet (ix2 l (i 1))) (rmean (ix2 l (i 1))) (rvar (ix2 l (i 1)))

/-- The layer's entry at explicit coordinates. -/
theorem layer_apply {K : ℕ} (agg h : Arr 50000 K) (s : Arr1 50000) (Wl Wr : Arr K 256) (b : Arr1 256)
    (gam bet rmean rvar : Arr 3 256) (l : Fin 3) (r : Fin 50000) (q : Fin 256) :
    layer agg h s Wl Wr b gam bet rmean rvar l (ix2 r q)
      = entry (fun k => agg (ix2 r k) * invDeg (s (ix1 r))) (fun k => h (ix2 r k))
          (fun k => Wl (ix2 k q)) (fun k => Wr (ix2 k q)) (b (ix1 q))
          (gam (ix2 l q)) (bet (ix2 l q)) (rmean (ix2 l q)) (rvar (ix2 l q)) := rfl

/-- The same array stated over the operands a kernel region is given: the reciprocal in-degrees as a column
    `D` [50000, 1] and the five per-channel parameters as rows [1, 256]. Entry (r, q) reads row r of `A`, `H` and
    `D`, column q of the weights and of the five rows. -/
def regionOut {K : ℕ} (A H : Arr 50000 K) (D : Arr 50000 1) (Wl Wr : Arr K 256) (B G Bt Rm Rv : Arr 1 256) :
    Arr 50000 256 :=
  fun i => entry (fun k => A (ix2 (i 0) k) * D (ix2 (i 0) 0)) (fun k => H (ix2 (i 0) k))
    (fun k => Wl (ix2 k (i 1))) (fun k => Wr (ix2 k (i 1))) (B (ix2 0 (i 1)))
    (G (ix2 0 (i 1))) (Bt (ix2 0 (i 1))) (Rm (ix2 0 (i 1))) (Rv (ix2 0 (i 1)))

theorem regionOut_apply {K : ℕ} (A H : Arr 50000 K) (D : Arr 50000 1) (Wl Wr : Arr K 256) (B G Bt Rm Rv : Arr 1 256)
    (r : Fin 50000) (q : Fin 256) :
    regionOut A H D Wl Wr B G Bt Rm Rv (ix2 r q)
      = entry (fun k => A (ix2 r k) * D (ix2 r 0)) (fun k => H (ix2 r k))
          (fun k => Wl (ix2 k q)) (fun k => Wr (ix2 k q)) (B (ix2 0 q))
          (G (ix2 0 q)) (Bt (ix2 0 q)) (Rm (ix2 0 q)) (Rv (ix2 0 q)) := rfl

/-- When the column `D` holds the reciprocal clamped in-degrees of the counts `s`, and the five rows hold the bias
    and row `l` of the four parameter tables, the region's array is the layer's. -/
theorem regionOut_eq_layer {K : ℕ} (A H : Arr 50000 K) (D : Arr 50000 1) (Wl Wr : Arr K 256) (B G Bt Rm Rv : Arr 1 256)
    (s : Arr1 50000) (b : Arr1 256) (gam bet rmean rvar : Arr 3 256) (l : Fin 3)
    (hD : ∀ r : Fin 50000, D (ix2 r 0) = invDeg (s (ix1 r)))
    (hB : ∀ q : Fin 256, B (ix2 0 q) = b (ix1 q))
    (hG : ∀ q : Fin 256, G (ix2 0 q) = gam (ix2 l q))
    (hBt : ∀ q : Fin 256, Bt (ix2 0 q) = bet (ix2 l q))
    (hRm : ∀ q : Fin 256, Rm (ix2 0 q) = rmean (ix2 l q))
    (hRv : ∀ q : Fin 256, Rv (ix2 0 q) = rvar (ix2 l q)) :
    regionOut A H D Wl Wr B G Bt Rm Rv = layer A H s Wl Wr b gam bet rmean rvar l := by
  funext i
  obtain ⟨r, q, rfl⟩ : ∃ (r : Fin 50000) (q : Fin 256), i = ix2 r q := ⟨i 0, i 1, eq_ix2 i⟩
  rw [regionOut_apply, layer_apply, hD, hB, hG, hBt, hRm, hRv]

end Cert.Layer

end
-- ==== Proof.Body0.lean ====
/-
  The body of graph layer one on one block of 2000 nodes, read entry by entry.

  The body takes the block of neighbour sums x0 [2000, 128], the block of reciprocal in-degrees x1 [2000, 1], the block
  of node features x2 [2000, 128], the two weight matrices x3, x4 [128, 256] and five rows [1, 256]: bias x5, scale x6,
  shift x7, running mean x8, running variance x9. It scales each row of x0 by that row's entry of x1, multiplies the
  scaled block by x3 and the feature block by x4, adds the two products and the bias row, subtracts the mean row,
  multiplies by the reciprocal square root of (variance row + ε) and by the scale row, adds the shift row and clamps
  at zero. On the extended reals the narrowing of the matrix operands to a shorter float format is the identity and a
  product accumulated into the zero array is the plain sum over the contracted axis, so entry (p, q) of the result is

      max( (((Σ_k (x0[p,k]·x1[p,0])·x3[k,q] + Σ_k x2[p,k]·x4[k,q]) + x5[0,q]) − x8[0,q]) · rsqrt(x9[0,q] + ε) · x6[0,q] + x7[0,q] , 0 ),

  which is the layer's entry function at row p of the blocks and column q of the parameters.
-/
import proofs.«175303_j45896020525700_1_alg».proof.Proof.Gen.KernelIdeal.Frame
import proofs.«175303_j45896020525700_1_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal
open scoped BigOperators

/-- A column [a, 1] broadcast to [a, b] reads, at (p, c), the column's entry in row p. -/
theorem colBroadcast0_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of an array, read at an index, is that of the entry there. -/
theorem rsqrt0_apply {s : Shape} {φ : FTy} (a : FVec Ideal s φ) (i : s.Idx) : rsqrt a i = Ideal.rsqrt (a i) := rfl

/-- Entry (p, q) of the product of a [2000, 128] block with a [128, 256] matrix, accumulated into the zero array, is the
    sum over k of x[p, k] · w[k, q]: the zero accumulator drops out, and the sum over the one contracted axis is
    re-indexed by its coordinate k, at which the left operand is read at (p, k) and the right one at (k, q). -/
theorem matmul0_apply (x : FVec Ideal S2000x128 .bf16) (w : FVec Ideal S128x256 .bf16) (p : Fin 2000) (q : Fin 256) :
    matmul (F := Ideal) dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q)
      ((contrEquiv1 dot_S2000x128_S128x256_S2000x256_1_0_0_1_n_n 128 rfl rfl).symm k) = ix2 p k :=
    funext fun a => Fin.ext (by
      match a with
      | ⟨0, _⟩ => rfl
      | ⟨1, _⟩ => exact (dot_S2000x128_S128x256_S2000x256_1_0_0_1_n_n.lhsIdx_val_of_single rfl _ _).trans hk)
  have er : dot_S2000x128_S128x256_S2000x256_1_0_0_1_n_n.rhsIdx (ix2 p q)
      ((contrEquiv1 dot_S2000x128_S128x256_S2000x256_1_0_0_1_n_n 128 rfl rfl).symm k) = ix2 k q :=
    funext fun a => Fin.ext (by
      match a with
      | ⟨0, _⟩ => exact (dot_S2000x128_S128x256_S2000x256_1_0_0_1_n_n.rhsIdx_val_of_single rfl _ _).trans hk
      | ⟨1, _⟩ => rfl)
  rw [el, er]

/-- Entry (p, q) of what the body leaves in the output block is the layer's entry function of row p of the scaled
    neighbour sums and of the features, column q of the two weight matrices and entry q of the five parameter rows.
    The body's one store covers the whole block and every load reads a whole block, so the output is the stored
    array; the index then passes through the entrywise operations, each [1, 256] row broadcast reads its entry q, the
    [2000, 1] column broadcast reads its entry p, and the two products are the sums above. -/
theorem out0_10_apply (x0 : Vec Ideal S2000x128 .f32) (x1 : Vec Ideal S2000x1 .f32) (x2 : Vec Ideal S2000x128 .f32)
    (x3 : Vec Ideal S128x256 .f32) (x4 : Vec Ideal S128x256 .f32) (x5 : Vec Ideal S1x256 .f32) (x6 : Vec Ideal S1x256 .f32)
    (x7 : Vec Ideal S1x256 .f32) (x8 : Vec Ideal S1x256 .f32) (x9 : Vec Ideal S1x256 .f32) (p : Fin 2000) (q : Fin 256) :
    Gen.out0_10 (F := Ideal) x0 x1 x2 x3 x4 x5 x6 x7 x8 x9 (ix2 p q)
      = Cert.Layer.entry (fun k : Fin 128 => x0 (ix2 p k) * x1 (ix2 p 0)) (fun k => x2 (ix2 p k))
          (fun k => x3 (ix2 k q)) (fun k => x4 (ix2 k q)) (x5 (ix2 0 q)) (x6 (ix2 0 q)) (x7 (ix2 0 q)) (x8 (ix2 0 q))
          (x9 (ix2 0 q)) := by
  have hz : (![0, 0] : Fin 2 → Nat) = fun _ => 0 := by
    funext a; match a with | ⟨0, _⟩ => rfl | ⟨1, _⟩ => rfl
  unfold Gen.out0_10
  rw [View.canon_unit_zero (S := S2000x256) hz, View.ld_unit_zero hz _ x0, View.ld_unit_zero hz _ x1, View.ld_unit_zero hz _ x2,
    View.ld_unit_zero hz _ x3, View.ld_unit_zero hz _ x4, View.ld_unit_zero hz _ x5, View.ld_unit_zero hz _ x6,
    View.ld_unit_zero hz _ x7, View.ld_unit_zero hz _ x8, View.ld_unit_zero hz _ x9]
  unfold Gen.k0_pay1 Gen.k0_pay2 Cert.Layer.entry
  simp only [maximumf_apply, addf_apply, subf_apply, mulf_apply, broadcast_apply, shapeCast_self, truncf_apply,
    broadcastTo_1b_ab_apply, colBroadcast0_apply, matmul0_apply, rsqrt0_apply]
  rfl

end Cert.KernelIdeal.Body

end
-- ==== Proof.Blocks0.lean ====
/-
  What region 0's grid leaves in its output array.

  The grid has 25 points. Point t stages rows 2000·t … 2000·t + 1999 of the neighbour sums [50000, 128], of the
  reciprocal in-degree column [50000, 1] and of the features [50000, 128], and the whole of the two weight matrices
  [128, 256] and of the five parameter rows [1, 256]; it writes back rows 2000·t … 2000·t + 1999 of the output
  [50000, 256]. Entry (p, q) of the block a point writes is therefore entry (2000·t + p, q) of ONE function of the
  region's operand arrays (the layer's entry read through row 2000·t + p and column q), and since the 25 row blocks
  tile the 50000 rows the output array ends holding that function everywhere.
-/
import proofs.«175303_j45896020525700_1_alg».proof.Proof.Gen.KernelIdeal.Frame
import proofs.«175303_j45896020525700_1_alg».proof.Proof.LayerSpec
import proofs.«175303_j45896020525700_1_alg».proof.Proof.Body0
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed block-index maps over the 25 grid points: the three row-blocked operands and the output are at block
    row t, column block 0; the seven whole operands stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 ∧ t.val < 25 :=
  (by decide +kernel : ∀ t : Fin grid0.N, _)

/-- Every one of the 25 row blocks is some point's. -/
theorem idx_onto : ∀ q0 : Fin 25, ∃ t : Fin cfg0.N, win0_10.index t = ![q0.val, 0] :=
  (by decide +kernel : ∀ q0 : Fin 25, ∃ t : Fin grid0.N, win0_10.index t = ![q0.val, 0])

/-- Row p of point t's blocks is row 2000·t + p of the arrays. -/
def rowOf (t : Fin cfg0.N) (p : Fin 2000) : Fin 50000 :=
  ⟨t.val * 2000 + p.val, by have h := (idx_facts t).2.2.2.2.2.2.2.2.2.2.2.2.2.2.2.2.2.2.2.2.2.2; have hp := p.isLt; omega⟩

/-- Input window 0's block at point t holds rows 2000·t … 2000·t + 1999 of its array. -/
theorem blk_0 (c : Dev nD) (t : Fin cfg0.N) (p : Fin 2000) (k : Fin 128) :
    iblk0 V c 0 t (ix2 p k) = (V c main_v22 : S50000x128.Idx → EReal) (ix2 (rowOf t p) k) := by
  show V c (Pipeline.arrRef spec0 0) (((cfg0.win 0).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Input window 1's block at point t holds rows 2000·t … 2000·t + 1999 of its array. -/
theorem blk_1 (c : Dev nD) (t : Fin cfg0.N) (p : Fin 2000) (z : Fin 1) :
    iblk0 V c 1 t (ix2 p z) = (V c main_v12 : S50000x1.Idx → EReal) (ix2 (rowOf t p) z) := by
  show V c (Pipeline.arrRef spec0 1) (((cfg0.win 1).blk t).view.emb (ix2 p z)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_1.index t (0 : Fin 2) * 2000 + 1 * p.val = t.val * 2000 + p.val; omega
  | ⟨1, _⟩ => show win0_1.index t (1 : Fin 2) * 1 + 1 * z.val = z.val; omega

/-- Input window 2's block at point t holds rows 2000·t … 2000·t + 1999 of its array. -/
theorem blk_2 (c : Dev nD) (t : Fin cfg0.N) (p : Fin 2000) (k : Fin 128) :
    iblk0 V c 2 t (ix2 p k) = (V c main_arg0 : S50000x128.Idx → EReal) (ix2 (rowOf t p) k) := by
  show V c (Pipeline.arrRef spec0 2) (((cfg0.win 2).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_2.index t (0 : Fin 2) * 2000 + 1 * p.val = t.val * 2000 + p.val; omega
  | ⟨1, _⟩ => show win0_2.index t (1 : Fin 2) * 128 + 1 * k.val = k.val; omega

/-- Input window 3's block at every point is its whole array. -/
theorem blk_3 (c : Dev nD) (t : Fin cfg0.N) (k : Fin 128) (q : Fin 256) :
    iblk0 V c 3 t (ix2 k q) = (V c main_arg6 : S128x256.Idx → EReal) (ix2 k q) := by
  show V c (Pipeline.arrRef spec0 3) (((cfg0.win 3).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_3.index t (0 : Fin 2) * 128 + 1 * k.val = k.val; omega
  | ⟨1, _⟩ => show win0_3.index t (1 : Fin 2) * 256 + 1 * q.val = q.val; omega

/-- Input window 4's block at every point is its whole array. -/
theorem blk_4 (c : Dev nD) (t : Fin cfg0.N) (k : Fin 128) (q : Fin 256) :
    iblk0 V c 4 t (ix2 k q) = (V c main_arg7 : S128x256.Idx → EReal) (ix2 k q) := by
  show V c (Pipeline.arrRef spec0 4) (((cfg0.win 4).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_4.index t (0 : Fin 2) * 128 + 1 * k.val = k.val; omega
  | ⟨1, _⟩ => show win0_4.index t (1 : Fin 2) * 256 + 1 * q.val = q.val; omega

/-- Input window 5's block at every point is its whole array. -/
theorem blk_5 (c : Dev nD) (t : Fin cfg0.N) (z : Fin 1) (q : Fin 256) :
    iblk0 V c 5 t (ix2 z q) = (V c main_v31 : S1x256.Idx → EReal) (ix2 z q) := by
  show V c (Pipeline.arrRef spec0 5) (((cfg0.win 5).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_5.index t (0 : Fin 2) * 1 + 1 * z.val = z.val; omega
  | ⟨1, _⟩ => show win0_5.index t (1 : Fin 2) * 256 + 1 * q.val = q.val; omega

/-- Input window 6's block at every point is its whole array. -/
theorem blk_6 (c : Dev nD) (t : Fin cfg0.N) (z : Fin 1) (q : Fin 256) :
    iblk0 V c 6 t (ix2 z q) = (V c main_v32 : S1x256.Idx → EReal) (ix2 z q) := by
  show V c (Pipeline.arrRef spec0 6) (((cfg0.win 6).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_6.index t (0 : Fin 2) * 1 + 1 * z.val = z.val; omega
  | ⟨1, _⟩ => show win0_6.index t (1 : Fin 2) * 256 + 1 * q.val = q.val; omega

/-- Input window 7's block at every point is its whole array. -/
theorem blk_7 (c : Dev nD) (t : Fin cfg0.N) (z : Fin 1) (q : Fin 256) :
    iblk0 V c 7 t (ix2 z q) = (V c main_v33 : S1x256.Idx → EReal) (ix2 z q) := by
  show V c (Pipeline.arrRef spec0 7) (((cfg0.win 7).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_7.index t (0 : Fin 2) * 1 + 1 * z.val = z.val; omega
  | ⟨1, _⟩ => show win0_7.index t (1 : Fin 2) * 256 + 1 * q.val = q.val; omega

/-- Input window 8's block at every point is its whole array. -/
theorem blk_8 (c : Dev nD) (t : Fin cfg0.N) (z : Fin 1) (q : Fin 256) :
    iblk0 V c 8 t (ix2 z q) = (V c main_v34 : S1x256.Idx → EReal) (ix2 z q) := by
  show V c (Pipeline.arrRef spec0 8) (((cfg0.win 8).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_8.index t (0 : Fin 2) * 1 + 1 * z.val = z.val; omega
  | ⟨1, _⟩ => show win0_8.index t (1 : Fin 2) * 256 + 1 * q.val = q.val; omega

/-- Input window 9's block at every point is its whole array. -/
theorem blk_9 (c : Dev nD) (t : Fin cfg0.N) (z : Fin 1) (q : Fin 256) :
    iblk0 V c 9 t (ix2 z q) = (V c main_v35 : S1x256.Idx → EReal) (ix2 z q) := by
  show V c (Pipeline.arrRef spec0 9) (((cfg0.win 9).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win0_9.index t (0 : Fin 2) * 1 + 1 * z.val = z.val; omega
  | ⟨1, _⟩ => show win0_9.index t (1 : Fin 2) * 256 + 1 * q.val = q.val; omega

/-- Entry (p, q) of the output block at point t sits at entry (2000·t + p, q) of the output array. -/
theorem emb_out (t : Fin cfg0.N) (p : Fin 2000) (q : Fin 256) :
    ((cfg0.win 10).blk t).view.emb (ix2 p q) = (ix2 (rowOf t p) q : S50000x256.Idx) := by
  funext a; apply Fin.ext
  obtain ⟨e0, e1, e2, e3, e4, e5, e6, e7, e8, e9, e10, e11, e12, e13, e14, e15, e16, e17, e18, e19, e20, e21, e22⟩ := idx_facts t
  match a with
  | ⟨0, _⟩ => show win0_10.index t (0 : Fin 2) * 2000 + 1 * p.val = t.val * 2000 + p.val; omega
  | ⟨1, _⟩ => show win0_10.index t (1 : Fin 2) * 256 + 1 * q.val = q.val; omega

/-- What point t writes back is block t of the region's whole-array function of its operand arrays. -/
theorem flushed_eq (c : Dev nD) (t : Fin cfg0.N) :
    (dat0 V c).flushed 10 t = ((cfg0.win 10).blk t).view.read (Elt Ideal)
      (Cert.Layer.regionOut (K := 128) (V c main_v22) (V c main_arg0) (V c main_v12) (V c main_arg6) (V c main_arg7) (V c main_v31) (V c main_v32) (V c main_v33) (V c main_v34) (V c main_v35)) := by
  show (cfg0.win 10).cut (grid0.coords t) ((dat0 V c).after 10 t) = _
  rw [after0_10]
  funext j
  obtain ⟨p, q, rfl⟩ : ∃ (p : Fin 2000) (q : Fin 256), j = ix2 p q := ⟨j 0, j 1, eq_ix2 j⟩
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p q)
    = Cert.Layer.regionOut (K := 128) (V c main_v22) (V c main_arg0) (V c main_v12) (V c main_arg6) (V c main_arg7) (V c main_v31) (V c main_v32) (V c main_v33) (V c main_v34) (V c main_v35) (((cfg0.win 10).blk t).view.emb (ix2 p q))
  rw [emb_out t p q, Cert.Layer.regionOut_apply]
  refine (Cert.KernelIdeal.Body.out0_10_apply _ _ _ _ _ _ _ _ _ _ p q).trans ?_
  simp only [blk_0 V c t, blk_1 V c t, blk_2 V c t, blk_3 V c t, blk_4 V c t, blk_5 V c t, blk_6 V c t, blk_7 V c t,
    blk_8 V c t, blk_9 V c t]

/-- An index of the output array is in point t's block iff each coordinate is in the block's range on its axis. -/
theorem mem_blk (t : Fin cfg0.N) (i : S50000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v36).slice (win0_10.rect t)).set ↔ _
  rw [View.set_slice_whole, Rect.mem_set_unit]
  exact Iff.rfl

/-- The 25 row blocks tile the output: row r is in the block of point r / 2000. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  obtain ⟨t, ht⟩ := idx_onto ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 256 ≤ (i 1).val ∧ (i 1).val < win0_10.index t (1 : Fin 2) * 256 + 256; omega

/-- After the region's grid the output array holds the layer's entries of the region's operand arrays. -/
theorem final (c : Dev nD) : (dat0 V c).arrAt 10 cfg0.N
    = Cert.Layer.regionOut (K := 128) (V c main_v22) (V c main_arg0) (V c main_v12) (V c main_arg6) (V c main_arg7) (V c main_v31) (V c main_v32) (V c main_v33) (V c main_v34) (V c main_v35) :=
  (dat0 V c).arrAt_eq_of_cover 10 _ (fun t _ => flushed_eq V c t) cover

end Cert.KernelIdeal.Blocks0

end
-- ==== Proof.RefLayer1.lean ====
/-
  The first graph layer of the reference program is the layer specification.

  For a node r and an output channel q the reference computes

      max( ((((Σ_k (A(r,k) / d(r)) · Wl(k,q) + Σ_k H(r,k) · Wr(k,q)) + b(q)) − μ(q))
             · rsqrt(σ²(q) + ε)) · γ(q) + β(q) , 0 ),

  k over the 128 input channels, with H the node features, A the scatter-add of the gathered feature rows, d(r) =
  max(c(r), 1) the clamped number of edges that end at r, and γ, β, μ, σ² row 0 of the four per-layer tables. A
  per-channel number reaches the [50000, 256] array through the slice of one table row, a reshape to a vector and two
  broadcasts; the divisor reaches the [50000, 128] array through two broadcasts of the clamped count. Each lemma below
  reads one such chain at the coordinates (r, q), or (r, k) for the divisor, and the theorem puts them together. The
  gather and the scatter-adds are never opened: A and c stay the terms the program writes, and dividing by d(r) is
  multiplying by 1 / d(r) because d(r) ≥ 1 is not zero.
-/
import proofs.«175303_j45896020525700_1_alg».proof.Proof.Gen.ReferenceIdeal.Read
import proofs.«175303_j45896020525700_1_alg».proof.Proof.LayerSpec

noncomputable section

namespace Cert.ReferenceIdeal.RefValue

open Cert.ReferenceIdeal Cert.ReferenceIdeal.Gen Cert.ReferenceIdeal.Read
open Idealize.ShloMosaic Idealize.ShloMosaic.StableHlo Idealize.ShloMosaic.ValueIdx
open scoped BigOperators

variable (x0 : (⟨S50000x128, .f32⟩ : BufTy).Contents (Elt Ideal)) (x1 : (⟨S2x800000, .i32⟩ : BufTy).Contents (Elt Ideal))
  (x2 x3 x4 x5 : (⟨S3x256, .f32⟩ : BufTy).Contents (Elt Ideal)) (x6 x7 : (⟨S128x256, .f32⟩ : BufTy).Contents (Elt Ideal))
  (x8 : (⟨S256, .f32⟩ : BufTy).Contents (Elt Ideal))

/-- The scale γ at (r, q) is row 0 of its table at q: the slice of that row, the reshape to a vector and the two
    broadcasts are read back. -/
theorem scale1 (r : Fin 50000) (q : Fin 256) :
    val_main_v47 (F := Ideal) x2 (ix2 r q) = x2 (ix2 (0 : Fin 3) q) := by
  rw [val_main_v47_apply, val_main_v46_apply, val_main_v12_apply, val_main_v11_apply]
  exact congrArg x2 (funext fun a => Fin.ext (by
    match a with
    | ⟨0, _⟩ => rfl
    | ⟨1, _⟩ => show q.val % 256 = q.val; exact Nat.mod_eq_of_lt q.isLt))

/-- The shift β at (r, q) is row 0 of its table at q. -/
theorem shift1 (r : Fin 50000) (q : Fin 256) :
    val_main_v50 (F := Ideal) x3 (ix2 r q) = x3 (ix2 (0 : Fin 3) q) := by
  rw [val_main_v50_apply, val_main_v49_apply, val_main_v14_apply, val_main_v13_apply]
  exact congrArg x3 (funext fun a => Fin.ext (by
    match a with
    | ⟨0, _⟩ => rfl
    | ⟨1, _⟩ => show q.val % 256 = q.val; exact Nat.mod_eq_of_lt q.isLt))

/-- The running mean μ at (r, q) is row 0 of its table at q. -/
theorem mean1 (r : Fin 50000) (q : Fin 256) :
    val_main_v38 (F := Ideal) x4 (ix2 r q) = x4 (ix2 (0 : Fin 3) q) := by
  rw [val_main_v38_apply, val_main_v37_apply, val_main_v16_apply, val_main_v15_apply]
  exact congrArg x4 (funext fun a => Fin.ext (by
    match a with
    | ⟨0, _⟩ => rfl
    | ⟨1, _⟩ => show q.val % 256 = q.val; exact Nat.mod_eq_of_lt q.isLt))

/-- The reciprocal standard deviation at (r, q) is rsqrt(σ²(q) + ε), σ² row 0 of the running-variance table. -/
theorem rstd1 (r : Fin 50000) (q : Fin 256) :
    val_main_v44 (F := Ideal) x5 (ix2 r q) = Ideal.rsqrt (x5 (ix2 (0 : Fin 3) q) + Cert.Layer.eps) := by
  have e : idx_main_v17 (idx_main_v18 (idx_main_v43 (idx_main_v44 (ix2 r q)))) = ix2 (0 : Fin 3) q :=
    funext fun a => Fin.ext (by
      match a with
      | ⟨0, _⟩ => rfl
      | ⟨1, _⟩ => show q.val % 256 = q.val; exact Nat.mod_eq_of_lt q.isLt)
  rw [val_main_v44_apply, val_main_v43_apply, val_main_v42_apply, val_main_v41_apply, val_main_v18_apply,
    val_main_v17_apply, val_main_v40_apply, val_main_cst_4_apply, e]
  rfl

/-- The bias at (r, q) is b(q): its two broadcasts are read back. -/
theorem bias1 (r : Fin 50000) (q : Fin 256) :
    val_main_v35 (F := Ideal) x8 (ix2 r q) = x8 (ix1 q) := by
  rw [val_main_v35_apply, val_main_v34_apply]
  exact congrArg x8 (funext fun a => Fin.ext (by match a with | ⟨0, _⟩ => rfl))

/-- The quotient at (r, k): the neighbour sum A(r, k) divided by the clamped count d(r) = max(c(r), 1), which is
    A(r, k) times the reciprocal 1 / d(r). The divisor is the count c(r) clamped below by the word 1.0, read back
    through its two broadcasts. -/
theorem scaled1 (r : Fin 50000) (k : Fin 128) :
    val_main_v30 (F := Ideal) x0 x1 (ix2 r k)
      = val_main_v28 (F := Ideal) x0 x1 (ix2 r k)
          * Cert.Layer.invDeg (val_main_v7 (F := Ideal) x1 (ix1 r)) := by
  have ed : idx_main_v10 (idx_main_v29 (ix2 r k)) = ix1 r :=
    funext fun a => Fin.ext (by match a with | ⟨0, _⟩ => rfl)
  rw [val_main_v30_apply, val_main_v29_apply, val_main_v10_apply, val_main_v9_apply, val_main_v8_apply,
    val_main_cst_1_apply, ed]
  simp only [Ideal.hostDivf_def, Ideal.maximumf_def, Ideal.ofBits_def]
  exact Cert.Layer.div_deg _ _

/-- The product with the first weight matrix at (r, q): the sum over k of the scaled neighbour sum at (r, k) times
    Wl(k, q). -/
theorem neighbourSum1 (r : Fin 50000) (q : Fin 256) :
    val_main_v31 (F := Ideal) x0 x1 x6 (ix2 r q)
      = ∑ k : Fin 128, (val_main_v28 (F := Ideal) x0 x1 (ix2 r k)
          * Cert.Layer.invDeg (val_main_v7 (F := Ideal) x1 (ix1 r))) * x6 (ix2 k q) := by
  rw [val_main_v31_apply]
  refine Finset.sum_congr rfl fun k _ => ?_
  have el : lidx_main_v31 (ix2 r q) k = ix2 r k :=
    funext fun a => Fin.ext (by match a with | ⟨0, _⟩ => rfl | ⟨1, _⟩ => rfl)
  have er : ridx_main_v31 (ix2 r q) k = ix2 k q :=
    funext fun a => Fin.ext (by match a with | ⟨0, _⟩ => rfl | ⟨1, _⟩ => rfl)
  rw [el, er, scaled1]

/-- The product with the second weight matrix at (r, q): the sum over k of the node's own feature at (r, k) times
    Wr(k, q). -/
theorem ownSum1 (r : Fin 50000) (q : Fin 256) :
    val_main_v32 (F := Ideal) x0 x7 (ix2 r q)
      = ∑ k : Fin 128, x0 (ix2 r k) * x7 (ix2 k q) := by
  rw [val_main_v32_apply]
  refine Finset.sum_congr rfl fun k _ => ?_
  have el : lidx_main_v32 (ix2 r q) k = ix2 r k :=
    funext fun a => Fin.ext (by match a with | ⟨0, _⟩ => rfl | ⟨1, _⟩ => rfl)
  have er : ridx_main_v32 (ix2 r q) k = ix2 k q :=
    funext fun a => Fin.ext (by match a with | ⟨0, _⟩ => rfl | ⟨1, _⟩ => rfl)
  rw [el, er]

/-- The first layer of the reference is the layer specification at the neighbour sums of the features, the features
    themselves, the edge counts, the first layer's two weight matrices and bias, and row 0 of the four tables. -/
theorem layer1 :
    val_main_v52 (F := Ideal) x0 x1 x2 x3 x4 x5 x6 x7 x8
      = Cert.Layer.layer (K := 128) (val_main_v28 (F := Ideal) x0 x1)
          x0 (val_main_v7 (F := Ideal) x1)
          x6 x7 x8 x2 x3 x4 x5 0 := by
  funext i
  obtain ⟨r, q, rfl⟩ : ∃ (r : Fin 50000) (q : Fin 256), i = ix2 r q := ⟨i 0, i 1, eq_ix2 i⟩
  rw [Cert.Layer.layer_apply, val_main_v52_apply, val_main_v51_apply, val_main_v48_apply, val_main_v45_apply,
    val_main_v39_apply, val_main_v36_apply, val_main_v33_apply, neighbourSum1, ownSum1,
    scale1, shift1, mean1, rstd1, bias1, val_main_call0_v0_apply, val_main_call0_cst_apply]
  simp only [Cert.Layer.entry, Ideal.maximumf_def, Ideal.addf_def, Ideal.subf_def, Ideal.mulf_def, Ideal.ofBits_def]

end Cert.ReferenceIdeal.RefValue

end
-- ==== Proof.LayoutReads.lean ====
/-
  Three layout readings the host side of the kernel needs, each at explicit coordinates.

  A vector of 256 channels recast as a row [1, 256] holds channel q at (0, q). Row l of a [3, 256] table — sliced out as
  [1, 256], recast to a vector and recast to a row again — holds the table's (l, q) at (0, q). The column [50000, 1] built
  as 1 / max(s, 1) from the edge counts s holds the reciprocal clamped in-degree of node r at (r, 0).
-/
import Idealize.ShloMosaic.PureOps.Ideal
import Idealize.ShloMosaic.Lib.Pipeline.Value
import Idealize.ShloMosaic.Lib.ValueIdx
import proofs.«175303_j45896020525700_1_alg».proof.Proof.LayerSpec

noncomputable section

namespace Cert.Layer

open Idealize.ShloMosaic Idealize.ShloMosaic.ValueIdx

abbrev Scalar0 : Shape := ⟨0, ![]⟩
abbrev Vec256 : Shape := ⟨1, ![256]⟩
abbrev Row256 : Shape := ⟨2, ![1, 256]⟩
abbrev Table3 : Shape := ⟨2, ![3, 256]⟩
abbrev Vec50000 : Shape := ⟨1, ![50000]⟩
abbrev Col50000 : Shape := ⟨2, ![50000, 1]⟩

/-- A vector of 256 channels recast as a row: (0, q) and q have the same row-major position. -/
theorem row_of_vector (x : Vec256.Idx → EReal) (h : Vec256.ShapeCasts Row256) (q : Fin 256) :
    shapeCast Row256 x h (ix2 (0 : Fin 1) q) = x (ix1 q) :=
  shapeCast_apply x h (ix2 (0 : Fin 1) q) (ix1 q) (by
    rw [Shape.rowMajor_val_one, Shape.rowMajor_val_two]
    show q.val = 0 * 256 + q.val
    omega)

/-- A row [1, 256] recast as a vector: q and (0, q) have the same row-major position. -/
theorem vector_of_row (x : Row256.Idx → EReal) (h : Row256.ShapeCasts Vec256) (q : Fin 256) :
    shapeCast Vec256 x h (ix1 q) = x (ix2 (0 : Fin 1) q) :=
  shapeCast_apply x h (ix1 q) (ix2 (0 : Fin 1) q) (by
    rw [Shape.rowMajor_val_one, Shape.rowMajor_val_two]
    show 0 * 256 + q.val = q.val
    omega)

/-- Row o of a [3, 256] table, sliced out, recast to a vector and recast to a row: (0, q) holds the table's (o, q). -/
theorem row_of_table (x : Table3.Idx → EReal) (o : ℕ) (ho : o < 3) (hs : Table3.Slices ![o, 0] Row256)
    (h1 : Row256.ShapeCasts Vec256) (h2 : Vec256.ShapeCasts Row256) (q : Fin 256) :
    shapeCast Row256 (shapeCast Vec256 (extractStridedSlice Row256 ![o, 0] x hs) h1) h2 (ix2 (0 : Fin 1) q)
      = x (ix2 (⟨o, ho⟩ : Fin 3) q) := by
  rw [row_of_vector, vector_of_row]
  exact extractStridedSlice_apply ![o, 0] x hs (ix2 (0 : Fin 1) q) (ix2 (⟨o, ho⟩ : Fin 3) q) (fun a => by
    match a with
    | ⟨0, _⟩ => show o = o + 0; omega
    | ⟨1, _⟩ => show q.val = 0 + q.val; omega)

/-- The column 1 / max(s, 1), built by broadcasting the word 1.0, clamping the counts below by it, dividing and
    adding a unit axis: at (r, 0) it is the reciprocal clamped in-degree of r. -/
theorem deg_column (s : Vec50000.Idx → EReal) (hb : Vec50000.BroadcastsInDim Col50000 ![0])
    (h0 : Scalar0.BroadcastsInDim Vec50000 ![]) (r : Fin 50000) :
    broadcastInDim Col50000 ![0] hb
        (Host.divf (F := Ideal) (broadcastInDim Vec50000 ![] h0 (constant (F := Ideal) Scalar0 .f32 0x3F800000#32))
          (maximumf (F := Ideal) s (broadcastInDim Vec50000 ![] h0 (constant (F := Ideal) Scalar0 .f32 0x3F800000#32))))
        (ix2 r (0 : Fin 1))
      = invDeg (s (ix1 r)) := by
  rw [broadcastInDim_apply ![0] hb _ (ix2 r (0 : Fin 1)) (ix1 r) (fun a => by
    match a with
    | ⟨0, _⟩ => show r.val = if (50000 : Nat) = 1 then 0 else r.val; rw [if_neg (by decide)])]
  show FloatOps.hostDivf (broadcastInDim Vec50000 ![] h0 (constant (F := Ideal) Scalar0 .f32 0x3F800000#32) (ix1 r))
      (FloatOps.maximumf (s (ix1 r)) (broadcastInDim Vec50000 ![] h0 (constant (F := Ideal) Scalar0 .f32 0x3F800000#32) (ix1 r)))
    = _
  rw [broadcastInDim_apply ![] h0 _ (ix1 r) ix0 (fun a => a.elim0)]
  rfl

end Cert.Layer

end
-- ==== Proof.Fold0.lean ====
/-
  The first layer's output array as the kernel leaves it, in the reference's own terms.

  Before the first region the host computes, from the launch memory: the two rows of the edge list, the edge counts
  per destination clamped below by 1 and inverted (a column), the neighbour sums of the input features (a gather by
  source then a scatter-add by destination), and the bias and row 0 of the four parameter tables recast as rows. These
  are the same operations, in the same order, as the reference's, so each array is the reference's stage function of
  the launch arrays. The region then leaves the layer's entries of those operands (the blocks tile the array), and that
  array is the reference's first clamped stage.
-/
import proofs.«175303_j45896020525700_1_alg».proof.Proof.Gen.KernelIdeal.Frame
import proofs.«175303_j45896020525700_1_alg».proof.Proof.Blocks0
import proofs.«175303_j45896020525700_1_alg».proof.Proof.RefLayer1
import proofs.«175303_j45896020525700_1_alg».proof.Proof.LayoutReads
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.ValueIdx Idealize.SL.Sem
open Cert.ReferenceIdeal.Read

variable (m : (ℓ : Loc nD τ sig) → Buf (Elt Ideal) ℓ) (ρ : Dev nD → PrngReg)

/-- A buffer no operation of a host stretch writes holds after the stretch what it held before. -/
macro "kept_by " ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The launch arrays of core `c` -/

abbrev x0 (c : Dev nD) : S50000x128.Idx → EReal := W0 m ρ c (Proc.devRef .tc main_arg0)
abbrev x1 (c : Dev nD) : (⟨S2x800000, .i32⟩ : BufTy).Contents (Elt Ideal) := W0 m ρ c (Proc.devRef .tc main_arg1)
abbrev x2 (c : Dev nD) : S3x256.Idx → EReal := W0 m ρ c (Proc.devRef .tc main_arg2)
abbrev x3 (c : Dev nD) : S3x256.Idx → EReal := W0 m ρ c (Proc.devRef .tc main_arg3)
abbrev x4 (c : Dev nD) : S3x256.Idx → EReal := W0 m ρ c (Proc.devRef .tc main_arg4)
abbrev x5 (c : Dev nD) : S3x256.Idx → EReal := W0 m ρ c (Proc.devRef .tc main_arg5)
abbrev x6 (c : Dev nD) : S128x256.Idx → EReal := W0 m ρ c (Proc.devRef .tc main_arg6)
abbrev x7 (c : Dev nD) : S128x256.Idx → EReal := W0 m ρ c (Proc.devRef .tc main_arg7)
abbrev x8 (c : Dev nD) : S256.Idx → EReal := W0 m ρ c (Proc.devRef .tc main_arg8)
abbrev x9 (c : Dev nD) : S256x256.Idx → EReal := W0 m ρ c (Proc.devRef .tc main_arg9)
abbrev x10 (c : Dev nD) : S256x256.Idx → EReal := W0 m ρ c (Proc.devRef .tc main_arg10)
abbrev x11 (c : Dev nD) : S256.Idx → EReal := W0 m ρ c (Proc.devRef .tc main_arg11)
abbrev x12 (c : Dev nD) : S256x256.Idx → EReal := W0 m ρ c (Proc.devRef .tc main_arg12)
abbrev x13 (c : Dev nD) : S256x256.Idx → EReal := W0 m ρ c (Proc.devRef .tc main_arg13)
abbrev x14 (c : Dev nD) : S256.Idx → EReal := W0 m ρ c (Proc.devRef .tc main_arg14)

/-! ## After the first host stretch -/

/-- The source row of the edge list, as the reference's stage. -/
theorem src_1 (c : Dev nD) : W1 m ρ c (Proc.devRef .tc main_v1) = val_main_v1 (F := Ideal) (x1 m ρ c) := by
  show StableHlo.after hostOps0 (W0 m ρ c) (Proc.devRef .tc main_v1) = _
  after_results
  rfl

/-- The destination row of the edge list, as the reference's stage. -/
theorem dst_1 (c : Dev nD) : W1 m ρ c (Proc.devRef .tc main_v3) = val_main_v3 (F := Ideal) (x1 m ρ c) := by
  show StableHlo.after hostOps0 (W0 m ρ c) (Proc.devRef .tc main_v3) = _
  after_results
  rfl

/-- The reciprocal clamped in-degree column at (r, 0), from the reference's edge counts. -/
theorem invdeg_1 (c : Dev nD) (r : Fin 50000) :
    (V1 m ρ c main_v12 : S50000x1.Idx → EReal) (ix2 r (0 : Fin 1)) = Cert.Layer.invDeg (val_main_v7 (F := Ideal) (x1 m ρ c) (ix1 r)) := by
  have e : (V1 m ρ c main_v12 : S50000x1.Idx → EReal)
      = broadcastInDim S50000x1 ![0] bcast_S50000_S50000x1_0
          (Host.divf (F := Ideal) (broadcastInDim S50000 ![] bcast_S_S50000 (constant (F := Ideal) S_ .f32 0x3F800000#32))
            (maximumf (F := Ideal) (val_main_v7 (F := Ideal) (x1 m ρ c))
              (broadcastInDim S50000 ![] bcast_S_S50000 (constant (F := Ideal) S_ .f32 0x3F800000#32)))) := by
    show StableHlo.after hostOps0 (W0 m ρ c) (Proc.devRef .tc main_v12) = _
    after_results
    rfl
  rw [e]
  exact Cert.Layer.deg_column _ _ _ r

/-- The neighbour sums of the input features, as the reference's stage. -/
theorem agg_1 (c : Dev nD) :
    (V1 m ρ c main_v22 : S50000x128.Idx → EReal) = val_main_v28 (F := Ideal) (x0 m ρ c) (x1 m ρ c) := by
  show StableHlo.after hostOps0 (W0 m ρ c) (Proc.devRef .tc main_v22) = _
  after_results_simp
  rfl

theorem feat_1 (c : Dev nD) : (V1 m ρ c main_arg0 : S50000x128.Idx → EReal) = x0 m ρ c := by
  show StableHlo.after hostOps0 (W0 m ρ c) (Proc.devRef .tc main_arg0) = _
  kept_by hostOps0
theorem wl_1 (c : Dev nD) : (V1 m ρ c main_arg6 : S128x256.Idx → EReal) = x6 m ρ c := by
  show StableHlo.after hostOps0 (W0 m ρ c) (Proc.devRef .tc main_arg6) = _
  kept_by hostOps0
theorem wr_1 (c : Dev nD) : (V1 m ρ c main_arg7 : S128x256.Idx → EReal) = x7 m ρ c := by
  show StableHlo.after hostOps0 (W0 m ρ c) (Proc.devRef .tc main_arg7) = _
  kept_by hostOps0

/-- The bias row at (0, q). -/
theorem bias_1 (c : Dev nD) (q : Fin 256) :
    (V1 m ρ c main_v31 : S1x256.Idx → EReal) (ix2 (0 : Fin 1) q) = x8 m ρ c (ix1 q) := by
  have e : (V1 m ρ c main_v31 : S1x256.Idx → EReal) = shapeCast S1x256 (x8 m ρ c) shapeCasts_S256_S1x256 := by
    show StableHlo.after hostOps0 (W0 m ρ c) (Proc.devRef .tc main_v31) = _
    after_results
    rfl
  rw [e]
  exact Cert.Layer.row_of_vector _ _ q

/-- Row 0 of the gamma table at (0, q). -/
theorem gamma_1 (c : Dev nD) (q : Fin 256) :
    (V1 m ρ c main_v32 : S1x256.Idx → EReal) (ix2 (0 : Fin 1) q) = x2 m ρ c (ix2 (0 : Fin 3) q) := by
  have e : (V1 m ρ c main_v32 : S1x256.Idx → EReal)
      = shapeCast S1x256 (shapeCast S256 (extractStridedSlice S1x256 ![0, 0] (x2 m ρ c) slices_S3x256_S1x256_0_0)
          shapeCasts_S1x256_S256) shapeCasts_S256_S1x256 := by
    show StableHlo.after hostOps0 (W0 m ρ c) (Proc.devRef .tc main_v32) = _
    after_results
    rfl
  rw [e]
  exact Cert.Layer.row_of_table (x2 m ρ c) 0 (by decide) _ _ _ q

/-- Row 0 of the beta table at (0, q). -/
theorem beta_1 (c : Dev nD) (q : Fin 256) :
    (V1 m ρ c main_v33 : S1x256.Idx → EReal) (ix2 (0 : Fin 1) q) = x3 m ρ c (ix2 (0 : Fin 3) q) := by
  have e : (V1 m ρ c main_v33 : S1x256.Idx → EReal)
      = shapeCast S1x256 (shapeCast S256 (extractStridedSlice S1x256 ![0, 0] (x3 m ρ c) slices_S3x256_S1x256_0_0)
          shapeCasts_S1x256_S256) shapeCasts_S256_S1x256 := by
    show StableHlo.after hostOps0 (W0 m ρ c) (Proc.devRef .tc main_v33) = _
    after_results
    rfl
  rw [e]
  exact Cert.Layer.row_of_table (x3 m ρ c) 0 (by decide) _ _ _ q

/-- Row 0 of the mean table at (0, q). -/
theorem mean_1 (c : Dev nD) (q : Fin 256) :
    (V1 m ρ c main_v34 : S1x256.Idx → EReal) (ix2 (0 : Fin 1) q) = x4 m ρ c (ix2 (0 : Fin 3) q) := by
  have e : (V1 m ρ c main_v34 : S1x256.Idx → EReal)
      = shapeCast S1x256 (shapeCast S256 (extractStridedSlice S1x256 ![0, 0] (x4 m ρ c) slices_S3x256_S1x256_0_0)
          shapeCasts_S1x256_S256) shapeCasts_S256_S1x256 := by
    show StableHlo.after hostOps0 (W0 m ρ c) (Proc.devRef .tc main_v34) = _
    after_results
    rfl
  rw [e]
  exact Cert.Layer.row_of_table (x4 m ρ c) 0 (by decide) _ _ _ q

/-- Row 0 of the var table at (0, q). -/
theorem var_1 (c : Dev nD) (q : Fin 256) :
    (V1 m ρ c main_v35 : S1x256.Idx → EReal) (ix2 (0 : Fin 1) q) = x5 m ρ c (ix2 (0 : Fin 3) q) := by
  have e : (V1 m ρ c main_v35 : S1x256.Idx → EReal)
      = shapeCast S1x256 (shapeCast S256 (extractStridedSlice S1x256 ![0, 0] (x5 m ρ c) slices_S3x256_S1x256_0_0)
          shapeCasts_S1x256_S256) shapeCasts_S256_S1x256 := by
    show StableHlo.after hostOps0 (W0 m ρ c) (Proc.devRef .tc main_v35) = _
    after_results
    rfl
  rw [e]
  exact Cert.Layer.row_of_table (x5 m ρ c) 0 (by decide) _ _ _ q

/-! ## After the first region -/

/-- The first layer's output array is the reference's first clamped stage of the launch arrays. -/
theorem out_1 (c : Dev nD) :
    (W2 m ρ c (Proc.devRef .tc main_v36) : S50000x256.Idx → EReal)
      = val_main_v52 (F := Ideal) (x0 m ρ c) (x1 m ρ c) (x2 m ρ c) (x3 m ρ c) (x4 m ρ c) (x5 m ρ c) (x6 m ρ c) (x7 m ρ c) (x8 m ρ c) := by
  refine (W2_arr m ρ c 10).trans ?_
  refine (Cert.KernelIdeal.Blocks0.final (V1 m ρ) c).trans ?_
  rw [Cert.ReferenceIdeal.RefValue.layer1]
  refine (Cert.Layer.regionOut_eq_layer _ _ _ _ _ _ _ _ _ _ (val_main_v7 (F := Ideal) (x1 m ρ c)) (x8 m ρ c) (x2 m ρ c) (x3 m ρ c)
    (x4 m ρ c) (x5 m ρ c) 0 (invdeg_1 m ρ c) (bias_1 m ρ c) (gamma_1 m ρ c) (beta_1 m ρ c) (mean_1 m ρ c) (var_1 m ρ c)).trans ?_
  rw [agg_1 m ρ c, feat_1 m ρ c, wl_1 m ρ c, wr_1 m ρ c]

end Cert.KernelIdeal.Fold

end
-- ==== Proof.Body1.lean ====
/-
  The body of graph layer two on one block of 2000 nodes, read entry by entry.

  The body takes the block of neighbour sums x0 [2000, 256], the block of reciprocal in-degrees x1 [2000, 1], the block
  of node features x2 [2000, 256], the two weight matrices x3, x4 [256, 256] and five rows [1, 256]: bias x5, scale x6,
  shift x7, running mean x8, running variance x9. It scales each row of x0 by that row's entry of x1, multiplies the
  scaled block by x3 and the feature block by x4, adds the two products and the bias row, subtracts the mean row,
  multiplies by the reciprocal square root of (variance row + ε) and by the scale row, adds the shift row and clamps
  at zero. On the extended reals the narrowing of the matrix operands to a shorter float format is the identity and a
  product accumulated into the zero array is the plain sum over the contracted axis, so entry (p, q) of the result is

      max( (((Σ_k (x0[p,k]·x1[p,0])·x3[k,q] + Σ_k x2[p,k]·x4[k,q]) + x5[0,q]) − x8[0,q]) · rsqrt(x9[0,q] + ε) · x6[0,q] + x7[0,q] , 0 ),

  which is the layer's entry function at row p of the blocks and column q of the parameters.
-/
import proofs.«175303_j45896020525700_1_alg».proof.Proof.Gen.KernelIdeal.Frame
import proofs.«175303_j45896020525700_1_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal
open scoped BigOperators

/-- A column [a, 1] broadcast to [a, b] reads, at (p, c), the column's entry in row p. -/
theorem colBroadcast1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of an array, read at an index, is that of the entry there. -/
theorem rsqrt1_apply {s : Shape} {φ : FTy} (a : FVec Ideal s φ) (i : s.Idx) : rsqrt a i = Ideal.rsqrt (a i) := rfl

/-- Entry (p, q) of the product of a [2000, 256] block with a [256, 256] matrix, accumulated into the zero array, is the
    sum over k of x[p, k] · w[k, q]: the zero accumulator drops out, and the sum over the one contracted axis is
    re-indexed by its coordinate k, at which the left operand is read at (p, k) and the right one at (k, q). -/
theorem matmul1_apply (x : FVec Ideal S2000x256 .bf16) (w : FVec Ideal S256x256 .bf16) (p : Fin 2000) (q : Fin 256) :
    matmul (F := Ideal) dot_S2000x256_S256x256_S2000x256_1_0_0_1_n_n none x w (constant S2000x256 .f32 0x00000000#32) (ix2 p q)
      = ∑ k : Fin 256, x (ix2 p k) * w (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => rfl
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => rfl)
  rw [el, er]

/-- Entry (p, q) of what the body leaves in the output block is the layer's entry function of row p of the scaled
    neighbour sums and of the features, column q of the two weight matrices and entry q of the five parameter rows.
    The body's one store covers the whole block and every load reads a whole block, so the output is the stored
    array; the index then passes through the entrywise operations, each [1, 256] row broadcast reads its entry q, the
    [2000, 1] column broadcast reads its entry p, and the two products are the sums above. -/
theorem out1_10_apply (x0 : Vec Ideal S2000x256 .f32) (x1 : Vec Ideal S2000x1 .f32) (x2 : Vec Ideal S2000x256 .f32)
    (x3 : Vec Ideal S256x256 .f32) (x4 : Vec Ideal S256x256 .f32) (x5 : Vec Ideal S1x256 .f32) (x6 : Vec Ideal S1x256 .f32)
    (x7 : Vec Ideal S1x256 .f32) (x8 : Vec Ideal S1x256 .f32) (x9 : Vec Ideal S1x256 .f32) (p : Fin 2000) (q : Fin 256) :
    Gen.out1_10 (F := Ideal) x0 x1 x2 x3 x4 x5 x6 x7 x8 x9 (ix2 p q)
      = Cert.Layer.entry (fun k : Fin 256 => x0 (ix2 p k) * x1 (ix2 p 0)) (fun k => x2 (ix2 p k))
          (fun k => x3 (ix2 k q)) (fun k => x4 (ix2 k q)) (x5 (ix2 0 q)) (x6 (ix2 0 q)) (x7 (ix2 0 q)) (x8 (ix2 0 q))
          (x9 (ix2 0 q)) := by
  have hz : (![0, 0] : Fin 2 → Nat) = fun _ => 0 := by
    funext a; match a with | ⟨0, _⟩ => rfl | ⟨1, _⟩ => rfl
  unfold Gen.out1_10
  rw [View.canon_unit_zero (S := S2000x256) hz, View.ld_unit_zero hz _ x0, View.ld_unit_zero hz _ x1, View.ld_unit_zero hz _ x2,
    View.ld_unit_zero hz _ x3, View.ld_unit_zero hz _ x4, View.ld_unit_zero hz _ x5, View.ld_unit_zero hz _ x6,
    View.ld_unit_zero hz _ x7, View.ld_unit_zero hz _ x8, View.ld_unit_zero hz _ x9]
  unfold Gen.k1_pay1 Gen.k1_pay2 Cert.Layer.entry
  simp only [maximumf_apply, addf_apply, subf_apply, mulf_apply, broadcast_apply, shapeCast_self, truncf_apply,
    broadcastTo_1b_ab_apply, colBroadcast1_apply, matmul1_apply, rsqrt1_apply]
  rfl

end Cert.KernelIdeal.Body

end
-- ==== Proof.Blocks1.lean ====
/-
  What region 1's grid leaves in its output array.

  The grid has 25 points. Point t stages rows 2000·t … 2000·t + 1999 of the neighbour sums [50000, 256], of the
  reciprocal in-degree column [50000, 1] and of the features [50000, 256], and the whole of the two weight matrices
  [256, 256] and of the five parameter rows [1, 256]; it writes back rows 2000·t … 2000·t + 1999 of the output
  [50000, 256]. Entry (p, q) of the block a point writes is therefore entry (2000·t + p, q) of ONE function of the
  region's operand arrays (the layer's entry read through row 2000·t + p and column q), and since the 25 row blocks
  tile the 50000 rows the output array ends holding that function everywhere.
-/
import proofs.«175303_j45896020525700_1_alg».proof.Proof.Gen.KernelIdeal.Frame
import proofs.«175303_j45896020525700_1_alg».proof.Proof.LayerSpec
import proofs.«175303_j45896020525700_1_alg».proof.Proof.Body1
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed block-index maps over the 25 grid points: the three row-blocked operands and the output are at block
    row t, column block 0; the seven whole operands stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 ∧ t.val < 25 :=
  (by decide +kernel : ∀ t : Fin grid1.N, _)

/-- Every one of the 25 row blocks is some point's. -/
theorem idx_onto : ∀ q0 : Fin 25, ∃ t : Fin cfg1.N, win1_10.index t = ![q0.val, 0] :=
  (by decide +kernel : ∀ q0 : Fin 25, ∃ t : Fin grid1.N, win1_10.index t = ![q0.val, 0])

/-- Row p of point t's blocks is row 2000·t + p of the arrays. -/
def rowOf (t : Fin cfg1.N) (p : Fin 2000) : Fin 50000 :=
  ⟨t.val * 2000 + p.val, by have h := (idx_facts t).2.2.2.2.2.2.2.2.2.2.2.2.2.2.2.2.2.2.2.2.2.2; have hp := p.isLt; omega⟩

/-- Input window 0's block at point t holds rows 2000·t … 2000·t + 1999 of its array. -/
theorem blk_0 (c : Dev nD) (t : Fin cfg1.N) (p : Fin 2000) (k : Fin 256) :
    iblk1 V c 0 t (ix2 p k) = (V c main_v46 : S50000x256.Idx → EReal) (ix2 (rowOf t p) k) := by
  show V c (Pipeline.arrRef spec1 0) (((cfg1.win 0).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_0.index t (0 : Fin 2) * 2000 + 1 * p.val = t.val * 2000 + p.val; omega
  | ⟨1, _⟩ => show win1_0.index t (1 : Fin 2) * 256 + 1 * k.val = k.val; omega

/-- Input window 1's block at point t holds rows 2000·t … 2000·t + 1999 of its array. -/
theorem blk_1 (c : Dev nD) (t : Fin cfg1.N) (p : Fin 2000) (z : Fin 1) :
    iblk1 V c 1 t (ix2 p z) = (V c main_v12 : S50000x1.Idx → EReal) (ix2 (rowOf t p) z) := by
  show V c (Pipeline.arrRef spec1 1) (((cfg1.win 1).blk t).view.emb (ix2 p z)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_1.index t (0 : Fin 2) * 2000 + 1 * p.val = t.val * 2000 + p.val; omega
  | ⟨1, _⟩ => show win1_1.index t (1 : Fin 2) * 1 + 1 * z.val = z.val; omega

/-- Input window 2's block at point t holds rows 2000·t … 2000·t + 1999 of its array. -/
theorem blk_2 (c : Dev nD) (t : Fin cfg1.N) (p : Fin 2000) (k : Fin 256) :
    iblk1 V c 2 t (ix2 p k) = (V c main_v36 : S50000x256.Idx → EReal) (ix2 (rowOf t p) k) := by
  show V c (Pipeline.arrRef spec1 2) (((cfg1.win 2).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_2.index t (0 : Fin 2) * 2000 + 1 * p.val = t.val * 2000 + p.val; omega
  | ⟨1, _⟩ => show win1_2.index t (1 : Fin 2) * 256 + 1 * k.val = k.val; omega

/-- Input window 3's block at every point is its whole array. -/
theorem blk_3 (c : Dev nD) (t : Fin cfg1.N) (k : Fin 256) (q : Fin 256) :
    iblk1 V c 3 t (ix2 k q) = (V c main_arg9 : S256x256.Idx → EReal) (ix2 k q) := by
  show V c (Pipeline.arrRef spec1 3) (((cfg1.win 3).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_3.index t (0 : Fin 2) * 256 + 1 * k.val = k.val; omega
  | ⟨1, _⟩ => show win1_3.index t (1 : Fin 2) * 256 + 1 * q.val = q.val; omega

/-- Input window 4's block at every point is its whole array. -/
theorem blk_4 (c : Dev nD) (t : Fin cfg1.N) (k : Fin 256) (q : Fin 256) :
    iblk1 V c 4 t (ix2 k q) = (V c main_arg10 : S256x256.Idx → EReal) (ix2 k q) := by
  show V c (Pipeline.arrRef spec1 4) (((cfg1.win 4).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_4.index t (0 : Fin 2) * 256 + 1 * k.val = k.val; omega
  | ⟨1, _⟩ => show win1_4.index t (1 : Fin 2) * 256 + 1 * q.val = q.val; omega

/-- Input window 5's block at every point is its whole array. -/
theorem blk_5 (c : Dev nD) (t : Fin cfg1.N) (z : Fin 1) (q : Fin 256) :
    iblk1 V c 5 t (ix2 z q) = (V c main_v55 : S1x256.Idx → EReal) (ix2 z q) := by
  show V c (Pipeline.arrRef spec1 5) (((cfg1.win 5).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_5.index t (0 : Fin 2) * 1 + 1 * z.val = z.val; omega
  | ⟨1, _⟩ => show win1_5.index t (1 : Fin 2) * 256 + 1 * q.val = q.val; omega

/-- Input window 6's block at every point is its whole array. -/
theorem blk_6 (c : Dev nD) (t : Fin cfg1.N) (z : Fin 1) (q : Fin 256) :
    iblk1 V c 6 t (ix2 z q) = (V c main_v56 : S1x256.Idx → EReal) (ix2 z q) := by
  show V c (Pipeline.arrRef spec1 6) (((cfg1.win 6).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_6.index t (0 : Fin 2) * 1 + 1 * z.val = z.val; omega
  | ⟨1, _⟩ => show win1_6.index t (1 : Fin 2) * 256 + 1 * q.val = q.val; omega

/-- Input window 7's block at every point is its whole array. -/
theorem blk_7 (c : Dev nD) (t : Fin cfg1.N) (z : Fin 1) (q : Fin 256) :
    iblk1 V c 7 t (ix2 z q) = (V c main_v57 : S1x256.Idx → EReal) (ix2 z q) := by
  show V c (Pipeline.arrRef spec1 7) (((cfg1.win 7).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_7.index t (0 : Fin 2) * 1 + 1 * z.val = z.val; omega
  | ⟨1, _⟩ => show win1_7.index t (1 : Fin 2) * 256 + 1 * q.val = q.val; omega

/-- Input window 8's block at every point is its whole array. -/
theorem blk_8 (c : Dev nD) (t : Fin cfg1.N) (z : Fin 1) (q : Fin 256) :
    iblk1 V c 8 t (ix2 z q) = (V c main_v58 : S1x256.Idx → EReal) (ix2 z q) := by
  show V c (Pipeline.arrRef spec1 8) (((cfg1.win 8).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_8.index t (0 : Fin 2) * 1 + 1 * z.val = z.val; omega
  | ⟨1, _⟩ => show win1_8.index t (1 : Fin 2) * 256 + 1 * q.val = q.val; omega

/-- Input window 9's block at every point is its whole array. -/
theorem blk_9 (c : Dev nD) (t : Fin cfg1.N) (z : Fin 1) (q : Fin 256) :
    iblk1 V c 9 t (ix2 z q) = (V c main_v59 : S1x256.Idx → EReal) (ix2 z q) := by
  show V c (Pipeline.arrRef spec1 9) (((cfg1.win 9).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win1_9.index t (0 : Fin 2) * 1 + 1 * z.val = z.val; omega
  | ⟨1, _⟩ => show win1_9.index t (1 : Fin 2) * 256 + 1 * q.val = q.val; omega

/-- Entry (p, q) of the output block at point t sits at entry (2000·t + p, q) of the output array. -/
theorem emb_out (t : Fin cfg1.N) (p : Fin 2000) (q : Fin 256) :
    ((cfg1.win 10).blk t).view.emb (ix2 p q) = (ix2 (rowOf t p) q : S50000x256.Idx) := by
  funext a; apply Fin.ext
  obtain ⟨e0, e1, e2, e3, e4, e5, e6, e7, e8, e9, e10, e11, e12, e13, e14, e15, e16, e17, e18, e19, e20, e21, e22⟩ := idx_facts t
  match a with
  | ⟨0, _⟩ => show win1_10.index t (0 : Fin 2) * 2000 + 1 * p.val = t.val * 2000 + p.val; omega
  | ⟨1, _⟩ => show win1_10.index t (1 : Fin 2) * 256 + 1 * q.val = q.val; omega

/-- What point t writes back is block t of the region's whole-array function of its operand arrays. -/
theorem flushed_eq (c : Dev nD) (t : Fin cfg1.N) :
    (dat1 V c).flushed 10 t = ((cfg1.win 10).blk t).view.read (Elt Ideal)
      (Cert.Layer.regionOut (K := 256) (V c main_v46) (V c main_v36) (V c main_v12) (V c main_arg9) (V c main_arg10) (V c main_v55) (V c main_v56) (V c main_v57) (V c main_v58) (V c main_v59)) := by
  show (cfg1.win 10).cut (grid1.coords t) ((dat1 V c).after 10 t) = _
  rw [after1_10]
  funext j
  obtain ⟨p, q, rfl⟩ : ∃ (p : Fin 2000) (q : Fin 256), j = ix2 p q := ⟨j 0, j 1, eq_ix2 j⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
    = Cert.Layer.regionOut (K := 256) (V c main_v46) (V c main_v36) (V c main_v12) (V c main_arg9) (V c main_arg10) (V c main_v55) (V c main_v56) (V c main_v57) (V c main_v58) (V c main_v59) (((cfg1.win 10).blk t).view.emb (ix2 p q))
  rw [emb_out t p q, Cert.Layer.regionOut_apply]
  refine (Cert.KernelIdeal.Body.out1_10_apply _ _ _ _ _ _ _ _ _ _ p q).trans ?_
  simp only [blk_0 V c t, blk_1 V c t, blk_2 V c t, blk_3 V c t, blk_4 V c t, blk_5 V c t, blk_6 V c t, blk_7 V c t,
    blk_8 V c t, blk_9 V c t]

/-- An index of the output array is in point t's block iff each coordinate is in the block's range on its axis. -/
theorem mem_blk (t : Fin cfg1.N) (i : S50000x256.Idx) :
    i ∈ ((cfg1.win 10).blk t).view.set ↔ ∀ a : Fin 2, win1_10.index t a * S2000x256.size a ≤ (i a).val
      ∧ (i a).val < win1_10.index t a * S2000x256.size a + S2000x256.size a := by
  show i ∈ ((View.whole main_v60).slice (win1_10.rect t)).set ↔ _
  rw [View.set_slice_whole, Rect.mem_set_unit]
  exact Iff.rfl

/-- The 25 row blocks tile the output: row r is in the block of point r / 2000. -/
theorem cover (i : S50000x256.Idx) :
    ∃ t : Fin cfg1.N, (cfg1.win 10).flush t = true ∧ i ∈ ((cfg1.win 10).blk t).view.set := by
  have hi0 : (i 0).val < 50000 := (i 0).isLt
  have hi1 : (i 1).val < 256 := (i 1).isLt
  obtain ⟨t, ht⟩ := idx_onto ⟨(i 0).val / 2000, by omega⟩
  have q0 : win1_10.index t (0 : Fin 2) = (i 0).val / 2000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 256 ≤ (i 1).val ∧ (i 1).val < win1_10.index t (1 : Fin 2) * 256 + 256; omega

/-- After the region's grid the output array holds the layer's entries of the region's operand arrays. -/
theorem final (c : Dev nD) : (dat1 V c).arrAt 10 cfg1.N
    = Cert.Layer.regionOut (K := 256) (V c main_v46) (V c main_v36) (V c main_v12) (V c main_arg9) (V c main_arg10) (V c main_v55) (V c main_v56) (V c main_v57) (V c main_v58) (V c main_v59) :=
  (dat1 V c).arrAt_eq_of_cover 10 _ (fun t _ => flushed_eq V c t) cover

end Cert.KernelIdeal.Blocks1

end
-- ==== Proof.RefLayer2.lean ====
/-
  The second graph layer of the reference program is the layer specification.

  For a node r and an output channel q the reference computes

      max( ((((Σ_k (A(r,k) / d(r)) · Wl(k,q) + Σ_k H(r,k) · Wr(k,q)) + b(q)) − μ(q))
             · rsqrt(σ²(q) + ε)) · γ(q) + β(q) , 0 ),

  k over the 256 input channels, with H the first layer's output, A the scatter-add of the gathered rows of H, d(r) =
  max(c(r), 1) the clamped number of edges that end at r, and γ, β, μ, σ² row 1 of the four per-layer tables. A
  per-channel number reaches the [50000, 256] array through the slice of one table row, a reshape to a vector and two
  broadcasts; the divisor reaches the [50000, 256] array through two broadcasts of the clamped count. Each lemma below
  reads one such chain at the coordinates (r, q), or (r, k) for the divisor, and the theorem puts them together. The
  gather and the scatter-adds are never opened: A and c stay the terms the program writes, and dividing by d(r) is
  multiplying by 1 / d(r) because d(r) ≥ 1 is not zero.
-/
import proofs.«175303_j45896020525700_1_alg».proof.Proof.Gen.ReferenceIdeal.Read
import proofs.«175303_j45896020525700_1_alg».proof.Proof.LayerSpec

noncomputable section

namespace Cert.ReferenceIdeal.RefValue

open Cert.ReferenceIdeal Cert.ReferenceIdeal.Gen Cert.ReferenceIdeal.Read
open Idealize.ShloMosaic Idealize.ShloMosaic.StableHlo Idealize.ShloMosaic.ValueIdx
open scoped BigOperators

variable (x0 : (⟨S50000x128, .f32⟩ : BufTy).Contents (Elt Ideal)) (x1 : (⟨S2x800000, .i32⟩ : BufTy).Contents (Elt Ideal))
  (x2 x3 x4 x5 : (⟨S3x256, .f32⟩ : BufTy).Contents (Elt Ideal)) (x6 x7 : (⟨S128x256, .f32⟩ : BufTy).Contents (Elt Ideal))
  (x8 : (⟨S256, .f32⟩ : BufTy).Contents (Elt Ideal))
  (x9 x10 : (⟨S256x256, .f32⟩ : BufTy).Contents (Elt Ideal)) (x11 : (⟨S256, .f32⟩ : BufTy).Contents (Elt Ideal))

/-- The scale γ at (r, q) is row 1 of its table at q: the slice of that row, the reshape to a vector and the two
    broadcasts are read back. -/
theorem scale2 (r : Fin 50000) (q : Fin 256) :
    val_main_v89 (F := Ideal) x2 (ix2 r q) = x2 (ix2 (1 : Fin 3) q) := by
  rw [val_main_v89_apply, val_main_v88_apply, val_main_v54_apply, val_main_v53_apply]
  exact congrArg x2 (funext fun a => Fin.ext (by
    match a with
    | ⟨0, _⟩ => rfl
    | ⟨1, _⟩ => show q.val % 256 = q.val; exact Nat.mod_eq_of_lt q.isLt))

/-- The shift β at (r, q) is row 1 of its table at q. -/
theorem shift2 (r : Fin 50000) (q : Fin 256) :
    val_main_v92 (F := Ideal) x3 (ix2 r q) = x3 (ix2 (1 : Fin 3) q) := by
  rw [val_main_v92_apply, val_main_v91_apply, val_main_v56_apply, val_main_v55_apply]
  exact congrArg x3 (funext fun a => Fin.ext (by
    match a with
    | ⟨0, _⟩ => rfl
    | ⟨1, _⟩ => show q.val % 256 = q.val; exact Nat.mod_eq_of_lt q.isLt))

/-- The running mean μ at (r, q) is row 1 of its table at q. -/
theorem mean2 (r : Fin 50000) (q : Fin 256) :
    val_main_v80 (F := Ideal) x4 (ix2 r q) = x4 (ix2 (1 : Fin 3) q) := by
  rw [val_main_v80_apply, val_main_v79_apply, val_main_v58_apply, val_main_v57_apply]
  exact congrArg x4 (funext fun a => Fin.ext (by
    match a with
    | ⟨0, _⟩ => rfl
    | ⟨1, _⟩ => show q.val % 256 = q.val; exact Nat.mod_eq_of_lt q.isLt))

/-- The reciprocal standard deviation at (r, q) is rsqrt(σ²(q) + ε), σ² row 1 of the running-variance table. -/
theorem rstd2 (r : Fin 50000) (q : Fin 256) :
    val_main_v86 (F := Ideal) x5 (ix2 r q) = Ideal.rsqrt (x5 (ix2 (1 : Fin 3) q) + Cert.Layer.eps) := by
  have e : idx_main_v59 (idx_main_v60 (idx_main_v85 (idx_main_v86 (ix2 r q)))) = ix2 (1 : Fin 3) q :=
    funext fun a => Fin.ext (by
      match a with
      | ⟨0, _⟩ => rfl
      | ⟨1, _⟩ => show q.val % 256 = q.val; exact Nat.mod_eq_of_lt q.isLt)
  rw [val_main_v86_apply, val_main_v85_apply, val_main_v84_apply, val_main_v83_apply, val_main_v60_apply,
    val_main_v59_apply, val_main_v82_apply, val_main_cst_8_apply, e]
  rfl

/-- The bias at (r, q) is b(q): its two broadcasts are read back. -/
theorem bias2 (r : Fin 50000) (q : Fin 256) :
    val_main_v77 (F := Ideal) x11 (ix2 r q) = x11 (ix1 q) := by
  rw [val_main_v77_apply, val_main_v76_apply]
  exact congrArg x11 (funext fun a => Fin.ext (by match a with | ⟨0, _⟩ => rfl))

/-- The quotient at (r, k): the neighbour sum A(r, k) divided by the clamped count d(r) = max(c(r), 1), which is
    A(r, k) times the reciprocal 1 / d(r). The divisor is the count c(r) clamped below by the word 1.0, read back
    through its two broadcasts. -/
theorem scaled2 (r : Fin 50000) (k : Fin 256) :
    val_main_v72 (F := Ideal) x0 x1 x2 x3 x4 x5 x6 x7 x8 (ix2 r k)
      = val_main_v70 (F := Ideal) x0 x1 x2 x3 x4 x5 x6 x7 x8 (ix2 r k)
          * Cert.Layer.invDeg (val_main_v7 (F := Ideal) x1 (ix1 r)) := by
  have ed : idx_main_v10 (idx_main_v71 (ix2 r k)) = ix1 r :=
    funext fun a => Fin.ext (by match a with | ⟨0, _⟩ => rfl)
  rw [val_main_v72_apply, val_main_v71_apply, val_main_v10_apply, val_main_v9_apply, val_main_v8_apply,
    val_main_cst_1_apply, ed]
  simp only [Ideal.hostDivf_def, Ideal.maximumf_def, Ideal.ofBits_def]
  exact Cert.Layer.div_deg _ _

/-- The product with the first weight matrix at (r, q): the sum over k of the scaled neighbour sum at (r, k) times
    Wl(k, q). -/
theorem neighbourSum2 (r : Fin 50000) (q : Fin 256) :
    val_main_v73 (F := Ideal) x0 x1 x2 x3 x4 x5 x6 x7 x8 x9 (ix2 r q)
      = ∑ k : Fin 256, (val_main_v70 (F := Ideal) x0 x1 x2 x3 x4 x5 x6 x7 x8 (ix2 r k)
          * Cert.Layer.invDeg (val_main_v7 (F := Ideal) x1 (ix1 r))) * x9 (ix2 k q) := by
  rw [val_main_v73_apply]
  refine Finset.sum_congr rfl fun k _ => ?_
  have el : lidx_main_v73 (ix2 r q) k = ix2 r k :=
    funext fun a => Fin.ext (by match a with | ⟨0, _⟩ => rfl | ⟨1, _⟩ => rfl)
  have er : ridx_main_v73 (ix2 r q) k = ix2 k q :=
    funext fun a => Fin.ext (by match a with | ⟨0, _⟩ => rfl | ⟨1, _⟩ => rfl)
  rw [el, er, scaled2]

/-- The product with the second weight matrix at (r, q): the sum over k of the node's own feature at (r, k) times
    Wr(k, q). -/
theorem ownSum2 (r : Fin 50000) (q : Fin 256) :
    val_main_v74 (F := Ideal) x0 x1 x2 x3 x4 x5 x6 x7 x8 x10 (ix2 r q)
      = ∑ k : Fin 256, val_main_v52 (F := Ideal) x0 x1 x2 x3 x4 x5 x6 x7 x8 (ix2 r k) * x10 (ix2 k q) := by
  rw [val_main_v74_apply]
  refine Finset.sum_congr rfl fun k _ => ?_
  have el : lidx_main_v74 (ix2 r q) k = ix2 r k :=
    funext fun a => Fin.ext (by match a with | ⟨0, _⟩ => rfl | ⟨1, _⟩ => rfl)
  have er : ridx_main_v74 (ix2 r q) k = ix2 k q :=
    funext fun a => Fin.ext (by match a with | ⟨0, _⟩ => rfl | ⟨1, _⟩ => rfl)
  rw [el, er]

/-- The second layer of the reference is the layer specification at the neighbour sums of the first layer's output,
    that output itself, the edge counts, the second layer's two weight matrices and bias, and row 1 of the four
    tables. -/
theorem layer2 :
    val_main_v94 (F := Ideal) x0 x1 x2 x3 x4 x5 x6 x7 x8 x9 x10 x11
      = Cert.Layer.layer (K := 256) (val_main_v70 (F := Ideal) x0 x1 x2 x3 x4 x5 x6 x7 x8)
          (val_main_v52 (F := Ideal) x0 x1 x2 x3 x4 x5 x6 x7 x8) (val_main_v7 (F := Ideal) x1)
          x9 x10 x11 x2 x3 x4 x5 1 := by
  funext i
  obtain ⟨r, q, rfl⟩ : ∃ (r : Fin 50000) (q : Fin 256), i = ix2 r q := ⟨i 0, i 1, eq_ix2 i⟩
  rw [Cert.Layer.layer_apply, val_main_v94_apply, val_main_v93_apply, val_main_v90_apply, val_main_v87_apply,
    val_main_v81_apply, val_main_v78_apply, val_main_v75_apply, neighbourSum2, ownSum2,
    scale2, shift2, mean2, rstd2, bias2, val_main_call1_v0_apply, val_main_call1_cst_apply]
  simp only [Cert.Layer.entry, Ideal.maximumf_def, Ideal.addf_def, Ideal.subf_def, Ideal.mulf_def, Ideal.ofBits_def]

end Cert.ReferenceIdeal.RefValue

end
-- ==== Proof.Fold1.lean ====
/-
  The second layer's output array as the kernel leaves it, in the reference's own terms.

  Between the first and the second region the host gathers the first layer's output by source and scatter-adds it
  by destination (the same two operations as the reference's, on the array the first region left, which is the
  reference's previous clamped stage), and recasts the layer's bias and row 1 of the four parameter tables as rows. The edge
  rows and the reciprocal in-degree column are the ones computed before the first region: nothing in between writes
  them. The region then leaves the layer's entries of those operands, and that array is the reference's second clamped stage.
-/
import proofs.«175303_j45896020525700_1_alg».proof.Proof.Fold0
import proofs.«175303_j45896020525700_1_alg».proof.Proof.Blocks1
import proofs.«175303_j45896020525700_1_alg».proof.Proof.RefLayer2
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.ValueIdx Idealize.SL.Sem
open Cert.ReferenceIdeal.Read

variable (m : (ℓ : Loc nD τ sig) → Buf (Elt Ideal) ℓ) (ρ : Dev nD → PrngReg)

/-! ## What reaches this stretch from earlier -/

theorem atW2_arg2 (c : Dev nD) : W2 m ρ c (Proc.devRef .tc main_arg2) = x2 m ρ c :=
  (W2_of_ne m ρ c main_arg2 (by decide)).trans (by
    show StableHlo.after hostOps0 (W0 m ρ c) (Proc.devRef .tc main_arg2) = _
    kept_by hostOps0)
theorem atW2_arg3 (c : Dev nD) : W2 m ρ c (Proc.devRef .tc main_arg3) = x3 m ρ c :=
  (W2_of_ne m ρ c main_arg3 (by decide)).trans (by
    show StableHlo.after hostOps0 (W0 m ρ c) (Proc.devRef .tc main_arg3) = _
    kept_by hostOps0)
theorem atW2_arg4 (c : Dev nD) : W2 m ρ c (Proc.devRef .tc main_arg4) = x4 m ρ c :=
  (W2_of_ne m ρ c main_arg4 (by decide)).trans (by
    show StableHlo.after hostOps0 (W0 m ρ c) (Proc.devRef .tc main_arg4) = _
    kept_by hostOps0)
theorem atW2_arg5 (c : Dev nD) : W2 m ρ c (Proc.devRef .tc main_arg5) = x5 m ρ c :=
  (W2_of_ne m ρ c main_arg5 (by decide)).trans (by
    show StableHlo.after hostOps0 (W0 m ρ c) (Proc.devRef .tc main_arg5) = _
    kept_by hostOps0)
theorem atW2_arg9 (c : Dev nD) : W2 m ρ c (Proc.devRef .tc main_arg9) = x9 m ρ c :=
  (W2_of_ne m ρ c main_arg9 (by decide)).trans (by
    show StableHlo.after hostOps0 (W0 m ρ c) (Proc.devRef .tc main_arg9) = _
    kept_by hostOps0)
theorem atW2_arg10 (c : Dev nD) : W2 m ρ c (Proc.devRef .tc main_arg10) = x10 m ρ c :=
  (W2_of_ne m ρ c main_arg10 (by decide)).trans (by
    show StableHlo.after hostOps0 (W0 m ρ c) (Proc.devRef .tc main_arg10) = _
    kept_by hostOps0)
theorem atW2_arg11 (c : Dev nD) : W2 m ρ c (Proc.devRef .tc main_arg11) = x11 m ρ c :=
  (W2_of_ne m ρ c main_arg11 (by decide)).trans (by
    show StableHlo.after hostOps0 (W0 m ρ c) (Proc.devRef .tc main_arg11) = _
    kept_by hostOps0)
theorem atW2_arg12 (c : Dev nD) : W2 m ρ c (Proc.devRef .tc main_arg12) = x12 m ρ c :=
  (W2_of_ne m ρ c main_arg12 (by decide)).trans (by
    show StableHlo.after hostOps0 (W0 m ρ c) (Proc.devRef .tc main_arg12) = _
    kept_by hostOps0)
theorem atW2_arg13 (c : Dev nD) : W2 m ρ c (Proc.devRef .tc main_arg13) = x13 m ρ c :=
  (W2_of_ne m ρ c main_arg13 (by decide)).trans (by
    show StableHlo.after hostOps0 (W0 m ρ c) (Proc.devRef .tc main_arg13) = _
    kept_by hostOps0)
theorem atW2_arg14 (c : Dev nD) : W2 m ρ c (Proc.devRef .tc main_arg14) = x14 m ρ c :=
  (W2_of_ne m ρ c main_arg14 (by decide)).trans (by
    show StableHlo.after hostOps0 (W0 m ρ c) (Proc.devRef .tc main_arg14) = _
    kept_by hostOps0)
theorem atW2_src (c : Dev nD) : W2 m ρ c (Proc.devRef .tc main_v1) = val_main_v1 (F := Ideal) (x1 m ρ c) :=
  (W2_of_ne m ρ c main_v1 (by decide)).trans (src_1 m ρ c)
theorem atW2_dst (c : Dev nD) : W2 m ρ c (Proc.devRef .tc main_v3) = val_main_v3 (F := Ideal) (x1 m ρ c) :=
  (W2_of_ne m ρ c main_v3 (by decide)).trans (dst_1 m ρ c)

/-- The reciprocal in-degree column reaches the second region unchanged: no host operation of the stretch writes it and
    the first region only read it. -/
theorem col_2 (c : Dev nD) : (V3 m ρ c main_v12 : S50000x1.Idx → EReal) = V1 m ρ c main_v12 :=
  (by show StableHlo.after hostOps1 (W2 m ρ c) (Proc.devRef .tc main_v12) = W2 m ρ c (Proc.devRef .tc main_v12)
      kept_by hostOps1 : W3 m ρ c (Proc.devRef .tc main_v12) = W2 m ρ c (Proc.devRef .tc main_v12)).trans
    ((W2_arr m ρ c 1).trans (((dat0 (V1 m ρ) c).arrAt_in 1 rfl _).trans (A_eq0 (V1 m ρ) c 1)))

/-! ## After the host stretch -/

theorem invdeg_2 (c : Dev nD) (r : Fin 50000) :
    (V3 m ρ c main_v12 : S50000x1.Idx → EReal) (ix2 r (0 : Fin 1)) = Cert.Layer.invDeg (val_main_v7 (F := Ideal) (x1 m ρ c) (ix1 r)) := by
  rw [col_2 m ρ c]
  exact invdeg_1 m ρ c r

/-- The previous layer's output reaches the region unchanged. -/
theorem feat_2 (c : Dev nD) : (V3 m ρ c main_v36 : S50000x256.Idx → EReal) = val_main_v52 (F := Ideal) (x0 m ρ c) (x1 m ρ c) (x2 m ρ c) (x3 m ρ c) (x4 m ρ c) (x5 m ρ c) (x6 m ρ c) (x7 m ρ c) (x8 m ρ c) :=
  (by show StableHlo.after hostOps1 (W2 m ρ c) (Proc.devRef .tc main_v36) = W2 m ρ c (Proc.devRef .tc main_v36)
      kept_by hostOps1 : (V3 m ρ c main_v36 : S50000x256.Idx → EReal) = W2 m ρ c (Proc.devRef .tc main_v36)).trans (out_1 m ρ c)

theorem wl_2 (c : Dev nD) : (V3 m ρ c main_arg9 : S256x256.Idx → EReal) = x9 m ρ c :=
  (by show StableHlo.after hostOps1 (W2 m ρ c) (Proc.devRef .tc main_arg9) = W2 m ρ c (Proc.devRef .tc main_arg9)
      kept_by hostOps1 : (V3 m ρ c main_arg9 : S256x256.Idx → EReal) = W2 m ρ c (Proc.devRef .tc main_arg9)).trans (atW2_arg9 m ρ c)
theorem wr_2 (c : Dev nD) : (V3 m ρ c main_arg10 : S256x256.Idx → EReal) = x10 m ρ c :=
  (by show StableHlo.after hostOps1 (W2 m ρ c) (Proc.devRef .tc main_arg10) = W2 m ρ c (Proc.devRef .tc main_arg10)
      kept_by hostOps1 : (V3 m ρ c main_arg10 : S256x256.Idx → EReal) = W2 m ρ c (Proc.devRef .tc main_arg10)).trans (atW2_arg10 m ρ c)

/-- The neighbour sums of the previous layer's output, as the reference's stage. -/
theorem agg_2 (c : Dev nD) :
    (V3 m ρ c main_v46 : S50000x256.Idx → EReal) = val_main_v70 (F := Ideal) (x0 m ρ c) (x1 m ρ c) (x2 m ρ c) (x3 m ρ c) (x4 m ρ c) (x5 m ρ c) (x6 m ρ c) (x7 m ρ c) (x8 m ρ c) := by
  show StableHlo.after hostOps1 (W2 m ρ c) (Proc.devRef .tc main_v46) = _
  after_results_simp
  rw [out_1 m ρ c, atW2_src m ρ c, atW2_dst m ρ c]
  rfl

/-- The bias row at (0, q). -/
theorem bias_2 (c : Dev nD) (q : Fin 256) :
    (V3 m ρ c main_v55 : S1x256.Idx → EReal) (ix2 (0 : Fin 1) q) = x11 m ρ c (ix1 q) := by
  have e : (V3 m ρ c main_v55 : S1x256.Idx → EReal)
      = shapeCast S1x256 (W2 m ρ c (Proc.devRef .tc main_arg11) : S256.Idx → EReal) shapeCasts_S256_S1x256 := by
    show StableHlo.after hostOps1 (W2 m ρ c) (Proc.devRef .tc main_v55) = _
    after_results
    rfl
  rw [e, atW2_arg11 m ρ c]
  exact Cert.Layer.row_of_vector _ _ q

/-- Row 1 of the gamma table at (0, q). -/
theorem gamma_2 (c : Dev nD) (q : Fin 256) :
    (V3 m ρ c main_v56 : S1x256.Idx → EReal) (ix2 (0 : Fin 1) q) = x2 m ρ c (ix2 (1 : Fin 3) q) := by
  have e : (V3 m ρ c main_v56 : S1x256.Idx → EReal)
      = shapeCast S1x256 (shapeCast S256 (extractStridedSlice S1x256 ![1, 0]
          (W2 m ρ c (Proc.devRef .tc main_arg2) : S3x256.Idx → EReal) slices_S3x256_S1x256_1_0) shapeCasts_S1x256_S256) shapeCasts_S256_S1x256 := by
    show StableHlo.after hostOps1 (W2 m ρ c) (Proc.devRef .tc main_v56) = _
    after_results
    rfl
  rw [e, atW2_arg2 m ρ c]
  exact Cert.Layer.row_of_table (x2 m ρ c) 1 (by decide) _ _ _ q

/-- Row 1 of the beta table at (0, q). -/
theorem beta_2 (c : Dev nD) (q : Fin 256) :
    (V3 m ρ c main_v57 : S1x256.Idx → EReal) (ix2 (0 : Fin 1) q) = x3 m ρ c (ix2 (1 : Fin 3) q) := by
  have e : (V3 m ρ c main_v57 : S1x256.Idx → EReal)
      = shapeCast S1x256 (shapeCast S256 (extractStridedSlice S1x256 ![1, 0]
          (W2 m ρ c (Proc.devRef .tc main_arg3) : S3x256.Idx → EReal) slices_S3x256_S1x256_1_0) shapeCasts_S1x256_S256) shapeCasts_S256_S1x256 := by
    show StableHlo.after hostOps1 (W2 m ρ c) (Proc.devRef .tc main_v57) = _
    after_results
    rfl
  rw [e, atW2_arg3 m ρ c]
  exact Cert.Layer.row_of_table (x3 m ρ c) 1 (by decide) _ _ _ q

/-- Row 1 of the mean table at (0, q). -/
theorem mean_2 (c : Dev nD) (q : Fin 256) :
    (V3 m ρ c main_v58 : S1x256.Idx → EReal) (ix2 (0 : Fin 1) q) = x4 m ρ c (ix2 (1 : Fin 3) q) := by
  have e : (V3 m ρ c main_v58 : S1x256.Idx → EReal)
      = shapeCast S1x256 (shapeCast S256 (extractStridedSlice S1x256 ![1, 0]
          (W2 m ρ c (Proc.devRef .tc main_arg4) : S3x256.Idx → EReal) slices_S3x256_S1x256_1_0) shapeCasts_S1x256_S256) shapeCasts_S256_S1x256 := by
    show StableHlo.after hostOps1 (W2 m ρ c) (Proc.devRef .tc main_v58) = _
    after_results
    rfl
  rw [e, atW2_arg4 m ρ c]
  exact Cert.Layer.row_of_table (x4 m ρ c) 1 (by decide) _ _ _ q

/-- Row 1 of the var table at (0, q). -/
theorem var_2 (c : Dev nD) (q : Fin 256) :
    (V3 m ρ c main_v59 : S1x256.Idx → EReal) (ix2 (0 : Fin 1) q) = x5 m ρ c (ix2 (1 : Fin 3) q) := by
  have e : (V3 m ρ c main_v59 : S1x256.Idx → EReal)
      = shapeCast S1x256 (shapeCast S256 (extractStridedSlice S1x256 ![1, 0]
          (W2 m ρ c (Proc.devRef .tc main_arg5) : S3x256.Idx → EReal) slices_S3x256_S1x256_1_0) shapeCasts_S1x256_S256) shapeCasts_S256_S1x256 := by
    show StableHlo.after hostOps1 (W2 m ρ c) (Proc.devRef .tc main_v59) = _
    after_results
    rfl
  rw [e, atW2_arg5 m ρ c]
  exact Cert.Layer.row_of_table (x5 m ρ c) 1 (by decide) _ _ _ q

/-! ## After the region -/

/-- The second layer's output array is the reference's second clamped stage of the launch arrays. -/
theorem out_2 (c : Dev nD) :
    (W4 m ρ c (Proc.devRef .tc main_v60) : S50000x256.Idx → EReal) = val_main_v94 (F := Ideal) (x0 m ρ c) (x1 m ρ c) (x2 m ρ c) (x3 m ρ c) (x4 m ρ c) (x5 m ρ c) (x6 m ρ c) (x7 m ρ c) (x8 m ρ c) (x9 m ρ c) (x10 m ρ c) (x11 m ρ c) := by
  refine (W4_arr m ρ c 10).trans ?_
  refine (Cert.KernelIdeal.Blocks1.final (V3 m ρ) c).trans ?_
  rw [Cert.ReferenceIdeal.RefValue.layer2]
  refine (Cert.Layer.regionOut_eq_layer _ _ _ _ _ _ _ _ _ _ (val_main_v7 (F := Ideal) (x1 m ρ c)) (x11 m ρ c) (x2 m ρ c) (x3 m ρ c)
    (x4 m ρ c) (x5 m ρ c) 1 (invdeg_2 m ρ c) (bias_2 m ρ c) (gamma_2 m ρ c) (beta_2 m ρ c) (mean_2 m ρ c) (var_2 m ρ c)).trans ?_
  rw [agg_2 m ρ c, feat_2 m ρ c, wl_2 m ρ c, wr_2 m ρ c]

end Cert.KernelIdeal.Fold

end
-- ==== Proof.Body2.lean ====
/-
  The body of graph layer three on one block of 2000 nodes, read entry by entry.

  The body takes the block of neighbour sums x0 [2000, 256], the block of reciprocal in-degrees x1 [2000, 1], the block
  of node features x2 [2000, 256], the two weight matrices x3, x4 [256, 256] and five rows [1, 256]: bias x5, scale x6,
  shift x7, running mean x8, running variance x9. It scales each row of x0 by that row's entry of x1, multiplies the
  scaled block by x3 and the feature block by x4, adds the two products and the bias row, subtracts the mean row,
  multiplies by the reciprocal square root of (variance row + ε) and by the scale row, adds the shift row and clamps
  at zero. On the extended reals the narrowing of the matrix operands to a shorter float format is the identity and a
  product accumulated into the zero array is the plain sum over the contracted axis, so entry (p, q) of the result is

      max( (((Σ_k (x0[p,k]·x1[p,0])·x3[k,q] + Σ_k x2[p,k]·x4[k,q]) + x5[0,q]) − x8[0,q]) · rsqrt(x9[0,q] + ε) · x6[0,q] + x7[0,q] , 0 ),

  which is the layer's entry function at row p of the blocks and column q of the parameters.
-/
import proofs.«175303_j45896020525700_1_alg».proof.Proof.Gen.KernelIdeal.Frame
import proofs.«175303_j45896020525700_1_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal
open scoped BigOperators

/-- A column [a, 1] broadcast to [a, b] reads, at (p, c), the column's entry in row p. -/
theorem colBroadcast2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of an array, read at an index, is that of the entry there. -/
theorem rsqrt2_apply {s : Shape} {φ : FTy} (a : FVec Ideal s φ) (i : s.Idx) : rsqrt a i = Ideal.rsqrt (a i) := rfl

/-- Entry (p, q) of the product of a [2000, 256] block with a [256, 256] matrix, accumulated into the zero array, is the
    sum over k of x[p, k] · w[k, q]: the zero accumulator drops out, and the sum over the one contracted axis is
    re-indexed by its coordinate k, at which the left operand is read at (p, k) and the right one at (k, q). -/
theorem matmul2_apply (x : FVec Ideal S2000x256 .bf16) (w : FVec Ideal S256x256 .bf16) (p : Fin 2000) (q : Fin 256) :
    matmul (F := Ideal) dot_S2000x256_S256x256_S2000x256_1_0_0_1_n_n none x w (constant S2000x256 .f32 0x00000000#32) (ix2 p q)
      = ∑ k : Fin 256, x (ix2 p k) * w (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => rfl
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => rfl)
  rw [el, er]

/-- Entry (p, q) of what the body leaves in the output block is the layer's entry function of row p of the scaled
    neighbour sums and of the features, column q of the two weight matrices and entry q of the five parameter rows.
    The body's one store covers the whole block and every load reads a whole block, so the output is the stored
    array; the index then passes through the entrywise operations, each [1, 256] row broadcast reads its entry q, the
    [2000, 1] column broadcast reads its entry p, and the two products are the sums above. -/
theorem out2_10_apply (x0 : Vec Ideal S2000x256 .f32) (x1 : Vec Ideal S2000x1 .f32) (x2 : Vec Ideal S2000x256 .f32)
    (x3 : Vec Ideal S256x256 .f32) (x4 : Vec Ideal S256x256 .f32) (x5 : Vec Ideal S1x256 .f32) (x6 : Vec Ideal S1x256 .f32)
    (x7 : Vec Ideal S1x256 .f32) (x8 : Vec Ideal S1x256 .f32) (x9 : Vec Ideal S1x256 .f32) (p : Fin 2000) (q : Fin 256) :
    Gen.out2_10 (F := Ideal) x0 x1 x2 x3 x4 x5 x6 x7 x8 x9 (ix2 p q)
      = Cert.Layer.entry (fun k : Fin 256 => x0 (ix2 p k) * x1 (ix2 p 0)) (fun k => x2 (ix2 p k))
          (fun k => x3 (ix2 k q)) (fun k => x4 (ix2 k q)) (x5 (ix2 0 q)) (x6 (ix2 0 q)) (x7 (ix2 0 q)) (x8 (ix2 0 q))
          (x9 (ix2 0 q)) := by
  have hz : (![0, 0] : Fin 2 → Nat) = fun _ => 0 := by
    funext a; match a with | ⟨0, _⟩ => rfl | ⟨1, _⟩ => rfl
  unfold Gen.out2_10
  rw [View.canon_unit_zero (S := S2000x256) hz, View.ld_unit_zero hz _ x0, View.ld_unit_zero hz _ x1, View.ld_unit_zero hz _ x2,
    View.ld_unit_zero hz _ x3, View.ld_unit_zero hz _ x4, View.ld_unit_zero hz _ x5, View.ld_unit_zero hz _ x6,
    View.ld_unit_zero hz _ x7, View.ld_unit_zero hz _ x8, View.ld_unit_zero hz _ x9]
  unfold Gen.k2_pay1 Gen.k2_pay2 Cert.Layer.entry
  simp only [maximumf_apply, addf_apply, subf_apply, mulf_apply, broadcast_apply, shapeCast_self, truncf_apply,
    broadcastTo_1b_ab_apply, colBroadcast2_apply, matmul2_apply, rsqrt2_apply]
  rfl

end Cert.KernelIdeal.Body

end
-- ==== Proof.Blocks2.lean ====
/-
  What region 2's grid leaves in its output array.

  The grid has 25 points. Point t stages rows 2000·t … 2000·t + 1999 of the neighbour sums [50000, 256], of the
  reciprocal in-degree column [50000, 1] and of the features [50000, 256], and the whole of the two weight matrices
  [256, 256] and of the five parameter rows [1, 256]; it writes back rows 2000·t … 2000·t + 1999 of the output
  [50000, 256]. Entry (p, q) of the block a point writes is therefore entry (2000·t + p, q) of ONE function of the
  region's operand arrays (the layer's entry read through row 2000·t + p and column q), and since the 25 row blocks
  tile the 50000 rows the output array ends holding that function everywhere.
-/
import proofs.«175303_j45896020525700_1_alg».proof.Proof.Gen.KernelIdeal.Frame
import proofs.«175303_j45896020525700_1_alg».proof.Proof.LayerSpec
import proofs.«175303_j45896020525700_1_alg».proof.Proof.Body2
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed block-index maps over the 25 grid points: the three row-blocked operands and the output are at block
    row t, column block 0; the seven whole operands stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 ∧ t.val < 25 :=
  (by decide +kernel : ∀ t : Fin grid2.N, _)

/-- Every one of the 25 row blocks is some point's. -/
theorem idx_onto : ∀ q0 : Fin 25, ∃ t : Fin cfg2.N, win2_10.index t = ![q0.val, 0] :=
  (by decide +kernel : ∀ q0 : Fin 25, ∃ t : Fin grid2.N, win2_10.index t = ![q0.val, 0])

/-- Row p of point t's blocks is row 2000·t + p of the arrays. -/
def rowOf (t : Fin cfg2.N) (p : Fin 2000) : Fin 50000 :=
  ⟨t.val * 2000 + p.val, by have h := (idx_facts t).2.2.2.2.2.2.2.2.2.2.2.2.2.2.2.2.2.2.2.2.2.2; have hp := p.isLt; omega⟩

/-- Input window 0's block at point t holds rows 2000·t … 2000·t + 1999 of its array. -/
theorem blk_0 (c : Dev nD) (t : Fin cfg2.N) (p : Fin 2000) (k : Fin 256) :
    iblk2 V c 0 t (ix2 p k) = (V c main_v70 : S50000x256.Idx → EReal) (ix2 (rowOf t p) k) := by
  show V c (Pipeline.arrRef spec2 0) (((cfg2.win 0).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_0.index t (0 : Fin 2) * 2000 + 1 * p.val = t.val * 2000 + p.val; omega
  | ⟨1, _⟩ => show win2_0.index t (1 : Fin 2) * 256 + 1 * k.val = k.val; omega

/-- Input window 1's block at point t holds rows 2000·t … 2000·t + 1999 of its array. -/
theorem blk_1 (c : Dev nD) (t : Fin cfg2.N) (p : Fin 2000) (z : Fin 1) :
    iblk2 V c 1 t (ix2 p z) = (V c main_v12 : S50000x1.Idx → EReal) (ix2 (rowOf t p) z) := by
  show V c (Pipeline.arrRef spec2 1) (((cfg2.win 1).blk t).view.emb (ix2 p z)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_1.index t (0 : Fin 2) * 2000 + 1 * p.val = t.val * 2000 + p.val; omega
  | ⟨1, _⟩ => show win2_1.index t (1 : Fin 2) * 1 + 1 * z.val = z.val; omega

/-- Input window 2's block at point t holds rows 2000·t … 2000·t + 1999 of its array. -/
theorem blk_2 (c : Dev nD) (t : Fin cfg2.N) (p : Fin 2000) (k : Fin 256) :
    iblk2 V c 2 t (ix2 p k) = (V c main_v60 : S50000x256.Idx → EReal) (ix2 (rowOf t p) k) := by
  show V c (Pipeline.arrRef spec2 2) (((cfg2.win 2).blk t).view.emb (ix2 p k)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_2.index t (0 : Fin 2) * 2000 + 1 * p.val = t.val * 2000 + p.val; omega
  | ⟨1, _⟩ => show win2_2.index t (1 : Fin 2) * 256 + 1 * k.val = k.val; omega

/-- Input window 3's block at every point is its whole array. -/
theorem blk_3 (c : Dev nD) (t : Fin cfg2.N) (k : Fin 256) (q : Fin 256) :
    iblk2 V c 3 t (ix2 k q) = (V c main_arg12 : S256x256.Idx → EReal) (ix2 k q) := by
  show V c (Pipeline.arrRef spec2 3) (((cfg2.win 3).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_3.index t (0 : Fin 2) * 256 + 1 * k.val = k.val; omega
  | ⟨1, _⟩ => show win2_3.index t (1 : Fin 2) * 256 + 1 * q.val = q.val; omega

/-- Input window 4's block at every point is its whole array. -/
theorem blk_4 (c : Dev nD) (t : Fin cfg2.N) (k : Fin 256) (q : Fin 256) :
    iblk2 V c 4 t (ix2 k q) = (V c main_arg13 : S256x256.Idx → EReal) (ix2 k q) := by
  show V c (Pipeline.arrRef spec2 4) (((cfg2.win 4).blk t).view.emb (ix2 k q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_4.index t (0 : Fin 2) * 256 + 1 * k.val = k.val; omega
  | ⟨1, _⟩ => show win2_4.index t (1 : Fin 2) * 256 + 1 * q.val = q.val; omega

/-- Input window 5's block at every point is its whole array. -/
theorem blk_5 (c : Dev nD) (t : Fin cfg2.N) (z : Fin 1) (q : Fin 256) :
    iblk2 V c 5 t (ix2 z q) = (V c main_v79 : S1x256.Idx → EReal) (ix2 z q) := by
  show V c (Pipeline.arrRef spec2 5) (((cfg2.win 5).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_5.index t (0 : Fin 2) * 1 + 1 * z.val = z.val; omega
  | ⟨1, _⟩ => show win2_5.index t (1 : Fin 2) * 256 + 1 * q.val = q.val; omega

/-- Input window 6's block at every point is its whole array. -/
theorem blk_6 (c : Dev nD) (t : Fin cfg2.N) (z : Fin 1) (q : Fin 256) :
    iblk2 V c 6 t (ix2 z q) = (V c main_v80 : S1x256.Idx → EReal) (ix2 z q) := by
  show V c (Pipeline.arrRef spec2 6) (((cfg2.win 6).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_6.index t (0 : Fin 2) * 1 + 1 * z.val = z.val; omega
  | ⟨1, _⟩ => show win2_6.index t (1 : Fin 2) * 256 + 1 * q.val = q.val; omega

/-- Input window 7's block at every point is its whole array. -/
theorem blk_7 (c : Dev nD) (t : Fin cfg2.N) (z : Fin 1) (q : Fin 256) :
    iblk2 V c 7 t (ix2 z q) = (V c main_v81 : S1x256.Idx → EReal) (ix2 z q) := by
  show V c (Pipeline.arrRef spec2 7) (((cfg2.win 7).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_7.index t (0 : Fin 2) * 1 + 1 * z.val = z.val; omega
  | ⟨1, _⟩ => show win2_7.index t (1 : Fin 2) * 256 + 1 * q.val = q.val; omega

/-- Input window 8's block at every point is its whole array. -/
theorem blk_8 (c : Dev nD) (t : Fin cfg2.N) (z : Fin 1) (q : Fin 256) :
    iblk2 V c 8 t (ix2 z q) = (V c main_v82 : S1x256.Idx → EReal) (ix2 z q) := by
  show V c (Pipeline.arrRef spec2 8) (((cfg2.win 8).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_8.index t (0 : Fin 2) * 1 + 1 * z.val = z.val; omega
  | ⟨1, _⟩ => show win2_8.index t (1 : Fin 2) * 256 + 1 * q.val = q.val; omega

/-- Input window 9's block at every point is its whole array. -/
theorem blk_9 (c : Dev nD) (t : Fin cfg2.N) (z : Fin 1) (q : Fin 256) :
    iblk2 V c 9 t (ix2 z q) = (V c main_v83 : S1x256.Idx → EReal) (ix2 z q) := by
  show V c (Pipeline.arrRef spec2 9) (((cfg2.win 9).blk t).view.emb (ix2 z q)) = _
  refine congrArg _ (funext fun a => Fin.ext ?_)
  obtain ⟨e0, e1, e2, e3, e4, e5, e6, e7, e8, e9, e10, e11, e12, e13, e14, e15, e16, e17, e18, e19, e20, e21, e22⟩ := idx_facts t
  match a with
  | ⟨0, _⟩ => show win2_9.index t (0 : Fin 2) * 1 + 1 * z.val = z.val; omega
  | ⟨1, _⟩ => show win2_9.index t (1 : Fin 2) * 256 + 1 * q.val = q.val; omega

/-- Entry (p, q) of the output block at point t sits at entry (2000·t + p, q) of the output array. -/
theorem emb_out (t : Fin cfg2.N) (p : Fin 2000) (q : Fin 256) :
    ((cfg2.win 10).blk t).view.emb (ix2 p q) = (ix2 (rowOf t p) q : S50000x256.Idx) := by
  funext a; apply Fin.ext
  obtain ⟨e0, e1, e2, e3, e4, e5, e6, e7, e8, e9, e10, e11, e12, e13, e14, e15, e16, e17, e18, e19, e20, e21, e22⟩ := idx_facts t
  match a with
  | ⟨0, _⟩ => show win2_10.index t (0 : Fin 2) * 2000 + 1 * p.val = t.val * 2000 + p.val; omega
  | ⟨1, _⟩ => show win2_10.index t (1 : Fin 2) * 256 + 1 * q.val = q.val; omega

/-- What point t writes back is block t of the region's whole-array function of its operand arrays. -/
theorem flushed_eq (c : Dev nD) (t : Fin cfg2.N) :
    (dat2 V c).flushed 10 t = ((cfg2.win 10).blk t).view.read (Elt Ideal)
      (Cert.Layer.regionOut (K := 256) (V c main_v70) (V c main_v60) (V c main_v12) (V c main_arg12) (V c main_arg13) (V c main_v79) (V c main_v80) (V c main_v81) (V c main_v82) (V c main_v83)) := by
  show (cfg2.win 10).cut (grid2.coords t) ((dat2 V c).after 10 t) = _
  rw [after2_10]
  funext j
  obtain ⟨p, q, rfl⟩ : ∃ (p : Fin 2000) (q : Fin 256), j = ix2 p q := ⟨j 0, j 1, eq_ix2 j⟩
  show out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 p q)
    = Cert.Layer.regionOut (K := 256) (V c main_v70) (V c main_v60) (V c main_v12) (V c main_arg12) (V c main_arg13) (V c main_v79) (V c main_v80) (V c main_v81) (V c main_v82) (V c main_v83) (((cfg2.win 10).blk t).view.emb (ix2 p q))
  rw [emb_out t p q, Cert.Layer.regionOut_apply]
  refine (Cert.KernelIdeal.Body.out2_10_apply _ _ _ _ _ _ _ _ _ _ p q).trans ?_
  simp only [blk_0 V c t, blk_1 V c t, blk_2 V c t, blk_3 V c t, blk_4 V c t, blk_5 V c t, blk_6 V c t, blk_7 V c t,
    blk_8 V c t, blk_9 V c t]

/-- An index of the output array is in point t's block iff each coordinate is in the block's range on its axis. -/
theorem mem_blk (t : Fin cfg2.N) (i : S50000x256.Idx) :
    i ∈ ((cfg2.win 10).blk t).view.set ↔ ∀ a : Fin 2, win2_10.index t a * S2000x256.size a ≤ (i a).val
      ∧ (i a).val < win2_10.index t a * S2000x256.size a + S2000x256.size a := by
  show i ∈ ((View.whole main_v84).slice (win2_10.rect t)).set ↔ _
  rw [View.set_slice_whole, Rect.mem_set_unit]
  exact Iff.rfl

/-- The 25 row blocks tile the output: row r is in the block of point r / 2000. -/
theorem cover (i : S50000x256.Idx) :
    ∃ t : Fin cfg2.N, (cfg2.win 10).flush t = true ∧ i ∈ ((cfg2.win 10).blk t).view.set := by
  have hi0 : (i 0).val < 50000 := (i 0).isLt
  have hi1 : (i 1).val < 256 := (i 1).isLt
  obtain ⟨t, ht⟩ := idx_onto ⟨(i 0).val / 2000, by omega⟩
  have q0 : win2_10.index t (0 : Fin 2) = (i 0).val / 2000 := congrFun ht 0
  have q1 : win2_10.index t (1 : Fin 2) = 0 := congrFun ht 1
  refine ⟨t, flush2_10 t, ?_⟩
  rw [mem_blk]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 256 ≤ (i 1).val ∧ (i 1).val < win2_10.index t (1 : Fin 2) * 256 + 256; omega

/-- After the region's grid the output array holds the layer's entries of the region's operand arrays. -/
theorem final (c : Dev nD) : (dat2 V c).arrAt 10 cfg2.N
    = Cert.Layer.regionOut (K := 256) (V c main_v70) (V c main_v60) (V c main_v12) (V c main_arg12) (V c main_arg13) (V c main_v79) (V c main_v80) (V c main_v81) (V c main_v82) (V c main_v83) :=
  (dat2 V c).arrAt_eq_of_cover 10 _ (fun t _ => flushed_eq V c t) cover

end Cert.KernelIdeal.Blocks2

end
-- ==== Proof.RefLayer3.lean ====
/-
  The third graph layer of the reference program is the layer specification.

  For a node r and an output channel q the reference computes

      max( ((((Σ_k (A(r,k) / d(r)) · Wl(k,q) + Σ_k H(r,k) · Wr(k,q)) + b(q)) − μ(q))
             · rsqrt(σ²(q) + ε)) · γ(q) + β(q) , 0 ),

  k over the 256 input channels, with H the second layer's output, A the scatter-add of the gathered rows of H, d(r) =
  max(c(r), 1) the clamped number of edges that end at r, and γ, β, μ, σ² row 2 of the four per-layer tables. A
  per-channel number reaches the [50000, 256] array through the slice of one table row, a reshape to a vector and two
  broadcasts; the divisor reaches the [50000, 256] array through two broadcasts of the clamped count. Each lemma below
  reads one such chain at the coordinates (r, q), or (r, k) for the divisor, and the theorem puts them together. The
  gather and the scatter-adds are never opened: A and c stay the terms the program writes, and dividing by d(r) is
  multiplying by 1 / d(r) because d(r) ≥ 1 is not zero.
-/
import proofs.«175303_j45896020525700_1_alg».proof.Proof.Gen.ReferenceIdeal.Read
import proofs.«175303_j45896020525700_1_alg».proof.Proof.LayerSpec

noncomputable section

namespace Cert.ReferenceIdeal.RefValue

open Cert.ReferenceIdeal Cert.ReferenceIdeal.Gen Cert.ReferenceIdeal.Read
open Idealize.ShloMosaic Idealize.ShloMosaic.StableHlo Idealize.ShloMosaic.ValueIdx
open scoped BigOperators

variable (x0 : (⟨S50000x128, .f32⟩ : BufTy).Contents (Elt Ideal)) (x1 : (⟨S2x800000, .i32⟩ : BufTy).Contents (Elt Ideal))
  (x2 x3 x4 x5 : (⟨S3x256, .f32⟩ : BufTy).Contents (Elt Ideal)) (x6 x7 : (⟨S128x256, .f32⟩ : BufTy).Contents (Elt Ideal))
  (x8 : (⟨S256, .f32⟩ : BufTy).Contents (Elt Ideal))
  (x9 x10 : (⟨S256x256, .f32⟩ : BufTy).Contents (Elt Ideal)) (x11 : (⟨S256, .f32⟩ : BufTy).Contents (Elt Ideal))
  (x12 x13 : (⟨S256x256, .f32⟩ : BufTy).Contents (Elt Ideal)) (x14 : (⟨S256, .f32⟩ : BufTy).Contents (Elt Ideal))

/-- The scale γ at (r, q) is row 2 of its table at q: the slice of that row, the reshape to a vector and the two
    broadcasts are read back. -/
theorem scale3 (r : Fin 50000) (q : Fin 256) :
    val_main_v131 (F := Ideal) x2 (ix2 r q) = x2 (ix2 (2 : Fin 3) q) := by
  rw [val_main_v131_apply, val_main_v130_apply, val_main_v96_apply, val_main_v95_apply]
  exact congrArg x2 (funext fun a => Fin.ext (by
    match a with
    | ⟨0, _⟩ => rfl
    | ⟨1, _⟩ => show q.val % 256 = q.val; exact Nat.mod_eq_of_lt q.isLt))

/-- The shift β at (r, q) is row 2 of its table at q. -/
theorem shift3 (r : Fin 50000) (q : Fin 256) :
    val_main_v134 (F := Ideal) x3 (ix2 r q) = x3 (ix2 (2 : Fin 3) q) := by
  rw [val_main_v134_apply, val_main_v133_apply, val_main_v98_apply, val_main_v97_apply]
  exact congrArg x3 (funext fun a => Fin.ext (by
    match a with
    | ⟨0, _⟩ => rfl
    | ⟨1, _⟩ => show q.val % 256 = q.val; exact Nat.mod_eq_of_lt q.isLt))

/-- The running mean μ at (r, q) is row 2 of its table at q. -/
theorem mean3 (r : Fin 50000) (q : Fin 256) :
    val_main_v122 (F := Ideal) x4 (ix2 r q) = x4 (ix2 (2 : Fin 3) q) := by
  rw [val_main_v122_apply, val_main_v121_apply, val_main_v100_apply, val_main_v99_apply]
  exact congrArg x4 (funext fun a => Fin.ext (by
    match a with
    | ⟨0, _⟩ => rfl
    | ⟨1, _⟩ => show q.val % 256 = q.val; exact Nat.mod_eq_of_lt q.isLt))

/-- The reciprocal standard deviation at (r, q) is rsqrt(σ²(q) + ε), σ² row 2 of the running-variance table. -/
theorem rstd3 (r : Fin 50000) (q : Fin 256) :
    val_main_v128 (F := Ideal) x5 (ix2 r q) = Ideal.rsqrt (x5 (ix2 (2 : Fin 3) q) + Cert.Layer.eps) := by
  have e : idx_main_v101 (idx_main_v102 (idx_main_v127 (idx_main_v128 (ix2 r q)))) = ix2 (2 : Fin 3) q :=
    funext fun a => Fin.ext (by
      match a with
      | ⟨0, _⟩ => rfl
      | ⟨1, _⟩ => show q.val % 256 = q.val; exact Nat.mod_eq_of_lt q.isLt)
  rw [val_main_v128_apply, val_main_v127_apply, val_main_v126_apply, val_main_v125_apply, val_main_v102_apply,
    val_main_v101_apply, val_main_v124_apply, val_main_cst_12_apply, e]
  rfl

/-- The bias at (r, q) is b(q): its two broadcasts are read back. -/
theorem bias3 (r : Fin 50000) (q : Fin 256) :
    val_main_v119 (F := Ideal) x14 (ix2 r q) = x14 (ix1 q) := by
  rw [val_main_v119_apply, val_main_v118_apply]
  exact congrArg x14 (funext fun a => Fin.ext (by match a with | ⟨0, _⟩ => rfl))

/-- The quotient at (r, k): the neighbour sum A(r, k) divided by the clamped count d(r) = max(c(r), 1), which is
    A(r, k) times the reciprocal 1 / d(r). The divisor is the count c(r) clamped below by the word 1.0, read back
    through its two broadcasts. -/
theorem scaled3 (r : Fin 50000) (k : Fin 256) :
    val_main_v114 (F := Ideal) x0 x1 x2 x3 x4 x5 x6 x7 x8 x9 x10 x11 (ix2 r k)
      = val_main_v112 (F := Ideal) x0 x1 x2 x3 x4 x5 x6 x7 x8 x9 x10 x11 (ix2 r k)
          * Cert.Layer.invDeg (val_main_v7 (F := Ideal) x1 (ix1 r)) := by
  have ed : idx_main_v10 (idx_main_v113 (ix2 r k)) = ix1 r :=
    funext fun a => Fin.ext (by match a with | ⟨0, _⟩ => rfl)
  rw [val_main_v114_apply, val_main_v113_apply, val_main_v10_apply, val_main_v9_apply, val_main_v8_apply,
    val_main_cst_1_apply, ed]
  simp only [Ideal.hostDivf_def, Ideal.maximumf_def, Ideal.ofBits_def]
  exact Cert.Layer.div_deg _ _

/-- The product with the first weight matrix at (r, q): the sum over k of the scaled neighbour sum at (r, k) times
    Wl(k, q). -/
theorem neighbourSum3 (r : Fin 50000) (q : Fin 256) :
    val_main_v115 (F := Ideal) x0 x1 x2 x3 x4 x5 x6 x7 x8 x9 x10 x11 x12 (ix2 r q)
      = ∑ k : Fin 256, (val_main_v112 (F := Ideal) x0 x1 x2 x3 x4 x5 x6 x7 x8 x9 x10 x11 (ix2 r k)
          * Cert.Layer.invDeg (val_main_v7 (F := Ideal) x1 (ix1 r))) * x12 (ix2 k q) := by
  rw [val_main_v115_apply]
  refine Finset.sum_congr rfl fun k _ => ?_
  have el : lidx_main_v115 (ix2 r q) k = ix2 r k :=
    funext fun a => Fin.ext (by match a with | ⟨0, _⟩ => rfl | ⟨1, _⟩ => rfl)
  have er : ridx_main_v115 (ix2 r q) k = ix2 k q :=
    funext fun a => Fin.ext (by match a with | ⟨0, _⟩ => rfl | ⟨1, _⟩ => rfl)
  rw [el, er, scaled3]

/-- The product with the second weight matrix at (r, q): the sum over k of the node's own feature at (r, k) times
    Wr(k, q). -/
theorem ownSum3 (r : Fin 50000) (q : Fin 256) :
    val_main_v116 (F := Ideal) x0 x1 x2 x3 x4 x5 x6 x7 x8 x9 x10 x11 x13 (ix2 r q)
      = ∑ k : Fin 256, val_main_v94 (F := Ideal) x0 x1 x2 x3 x4 x5 x6 x7 x8 x9 x10 x11 (ix2 r k) * x13 (ix2 k q) := by
  rw [val_main_v116_apply]
  refine Finset.sum_congr rfl fun k _ => ?_
  have el : lidx_main_v116 (ix2 r q) k = ix2 r k :=
    funext fun a => Fin.ext (by match a with | ⟨0, _⟩ => rfl | ⟨1, _⟩ => rfl)
  have er : ridx_main_v116 (ix2 r q) k = ix2 k q :=
    funext fun a => Fin.ext (by match a with | ⟨0, _⟩ => rfl | ⟨1, _⟩ => rfl)
  rw [el, er]

/-- The third layer of the reference is the layer specification at the neighbour sums of the second layer's output,
    that output itself, the edge counts, the third layer's two weight matrices and bias, and row 2 of the four
    tables. -/
theorem layer3 :
    val_main_v136 (F := Ideal) x0 x1 x2 x3 x4 x5 x6 x7 x8 x9 x10 x11 x12 x13 x14
      = Cert.Layer.layer (K := 256) (val_main_v112 (F := Ideal) x0 x1 x2 x3 x4 x5 x6 x7 x8 x9 x10 x11)
          (val_main_v94 (F := Ideal) x0 x1 x2 x3 x4 x5 x6 x7 x8 x9 x10 x11) (val_main_v7 (F := Ideal) x1)
          x12 x13 x14 x2 x3 x4 x5 2 := by
  funext i
  obtain ⟨r, q, rfl⟩ : ∃ (r : Fin 50000) (q : Fin 256), i = ix2 r q := ⟨i 0, i 1, eq_ix2 i⟩
  rw [Cert.Layer.layer_apply, val_main_v136_apply, val_main_v135_apply, val_main_v132_apply, val_main_v129_apply,
    val_main_v123_apply, val_main_v120_apply, val_main_v117_apply, neighbourSum3, ownSum3,
    scale3, shift3, mean3, rstd3, bias3, val_main_call2_v0_apply, val_main_call2_cst_apply]
  simp only [Cert.Layer.entry, Ideal.maximumf_def, Ideal.addf_def, Ideal.subf_def, Ideal.mulf_def, Ideal.ofBits_def]

end Cert.ReferenceIdeal.RefValue

end
-- ==== Proof.Fold2.lean ====
/-
  The third layer's output array as the kernel leaves it, in the reference's own terms.

  Between the second and the third region the host gathers the second layer's output by source and scatter-adds it
  by destination (the same two operations as the reference's, on the array the second region left, which is the
  reference's previous clamped stage), and recasts the layer's bias and row 2 of the four parameter tables as rows. The edge
  rows and the reciprocal in-degree column are the ones computed before the first region: nothing in between writes
  them. The region then leaves the layer's entries of those operands, and that array is the reference's third clamped stage.
-/
import proofs.«175303_j45896020525700_1_alg».proof.Proof.Fold1
import proofs.«175303_j45896020525700_1_alg».proof.Proof.Blocks2
import proofs.«175303_j45896020525700_1_alg».proof.Proof.RefLayer3
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.ValueIdx Idealize.SL.Sem
open Cert.ReferenceIdeal.Read

variable (m : (ℓ : Loc nD τ sig) → Buf (Elt Ideal) ℓ) (ρ : Dev nD → PrngReg)

/-! ## What reaches this stretch from earlier -/

theorem atW4_arg2 (c : Dev nD) : W4 m ρ c (Proc.devRef .tc main_arg2) = x2 m ρ c :=
  (W4_of_ne m ρ c main_arg2 (by decide)).trans ((by
    show StableHlo.after hostOps1 (W2 m ρ c) (Proc.devRef .tc main_arg2) = W2 m ρ c (Proc.devRef .tc main_arg2)
    kept_by hostOps1 : W3 m ρ c (Proc.devRef .tc main_arg2) = W2 m ρ c (Proc.devRef .tc main_arg2)).trans (atW2_arg2 m ρ c))
theorem atW4_arg3 (c : Dev nD) : W4 m ρ c (Proc.devRef .tc main_arg3) = x3 m ρ c :=
  (W4_of_ne m ρ c main_arg3 (by decide)).trans ((by
    show StableHlo.after hostOps1 (W2 m ρ c) (Proc.devRef .tc main_arg3) = W2 m ρ c (Proc.devRef .tc main_arg3)
    kept_by hostOps1 : W3 m ρ c (Proc.devRef .tc main_arg3) = W2 m ρ c (Proc.devRef .tc main_arg3)).trans (atW2_arg3 m ρ c))
theorem atW4_arg4 (c : Dev nD) : W4 m ρ c (Proc.devRef .tc main_arg4) = x4 m ρ c :=
  (W4_of_ne m ρ c main_arg4 (by decide)).trans ((by
    show StableHlo.after hostOps1 (W2 m ρ c) (Proc.devRef .tc main_arg4) = W2 m ρ c (Proc.devRef .tc main_arg4)
    kept_by hostOps1 : W3 m ρ c (Proc.devRef .tc main_arg4) = W2 m ρ c (Proc.devRef .tc main_arg4)).trans (atW2_arg4 m ρ c))
theorem atW4_arg5 (c : Dev nD) : W4 m ρ c (Proc.devRef .tc main_arg5) = x5 m ρ c :=
  (W4_of_ne m ρ c main_arg5 (by decide)).trans ((by
    show StableHlo.after hostOps1 (W2 m ρ c) (Proc.devRef .tc main_arg5) = W2 m ρ c (Proc.devRef .tc main_arg5)
    kept_by hostOps1 : W3 m ρ c (Proc.devRef .tc main_arg5) = W2 m ρ c (Proc.devRef .tc main_arg5)).trans (atW2_arg5 m ρ c))
theorem atW4_arg12 (c : Dev nD) : W4 m ρ c (Proc.devRef .tc main_arg12) = x12 m ρ c :=
  (W4_of_ne m ρ c main_arg12 (by decide)).trans ((by
    show StableHlo.after hostOps1 (W2 m ρ c) (Proc.devRef .tc main_arg12) = W2 m ρ c (Proc.devRef .tc main_arg12)
    kept_by hostOps1 : W3 m ρ c (Proc.devRef .tc main_arg12) = W2 m ρ c (Proc.devRef .tc main_arg12)).trans (atW2_arg12 m ρ c))
theorem atW4_arg13 (c : Dev nD) : W4 m ρ c (Proc.devRef .tc main_arg13) = x13 m ρ c :=
  (W4_of_ne m ρ c main_arg13 (by decide)).trans ((by
    show StableHlo.after hostOps1 (W2 m ρ c) (Proc.devRef .tc main_arg13) = W2 m ρ c (Proc.devRef .tc main_arg13)
    kept_by hostOps1 : W3 m ρ c (Proc.devRef .tc main_arg13) = W2 m ρ c (Proc.devRef .tc main_arg13)).trans (atW2_arg13 m ρ c))
theorem atW4_arg14 (c : Dev nD) : W4 m ρ c (Proc.devRef .tc main_arg14) = x14 m ρ c :=
  (W4_of_ne m ρ c main_arg14 (by decide)).trans ((by
    show StableHlo.after hostOps1 (W2 m ρ c) (Proc.devRef .tc main_arg14) = W2 m ρ c (Proc.devRef .tc main_arg14)
    kept_by hostOps1 : W3 m ρ c (Proc.devRef .tc main_arg14) = W2 m ρ c (Proc.devRef .tc main_arg14)).trans (atW2_arg14 m ρ c))
theorem atW4_src (c : Dev nD) : W4 m ρ c (Proc.devRef .tc main_v1) = val_main_v1 (F := Ideal) (x1 m ρ c) :=
  (W4_of_ne m ρ c main_v1 (by decide)).trans ((by
    show StableHlo.after hostOps1 (W2 m ρ c) (Proc.devRef .tc main_v1) = W2 m ρ c (Proc.devRef .tc main_v1)
    kept_by hostOps1 : W3 m ρ c (Proc.devRef .tc main_v1) = W2 m ρ c (Proc.devRef .tc main_v1)).trans (atW2_src m ρ c))
theorem atW4_dst (c : Dev nD) : W4 m ρ c (Proc.devRef .tc main_v3) = val_main_v3 (F := Ideal) (x1 m ρ c) :=
  (W4_of_ne m ρ c main_v3 (by decide)).trans ((by
    show StableHlo.after hostOps1 (W2 m ρ c) (Proc.devRef .tc main_v3) = W2 m ρ c (Proc.devRef .tc main_v3)
    kept_by hostOps1 : W3 m ρ c (Proc.devRef .tc main_v3) = W2 m ρ c (Proc.devRef .tc main_v3)).trans (atW2_dst m ρ c))

/-- The reciprocal in-degree column reaches the third region unchanged: no host operation of the stretch writes it and
    the second region only read it. -/
theorem col_3 (c : Dev nD) : (V5 m ρ c main_v12 : S50000x1.Idx → EReal) = V1 m ρ c main_v12 :=
  (by show StableHlo.after hostOps2 (W4 m ρ c) (Proc.devRef .tc main_v12) = W4 m ρ c (Proc.devRef .tc main_v12)
      kept_by hostOps2 : W5 m ρ c (Proc.devRef .tc main_v12) = W4 m ρ c (Proc.devRef .tc main_v12)).trans
    (((W4_arr m ρ c 1).trans (((dat1 (V3 m ρ) c).arrAt_in 1 rfl _).trans (A_eq1 (V3 m ρ) c 1))).trans (col_2 m ρ c))

/-! ## After the host stretch -/

theorem invdeg_3 (c : Dev nD) (r : Fin 50000) :
    (V5 m ρ c main_v12 : S50000x1.Idx → EReal) (ix2 r (0 : Fin 1)) = Cert.Layer.invDeg (val_main_v7 (F := Ideal) (x1 m ρ c) (ix1 r)) := by
  rw [col_3 m ρ c]
  exact invdeg_1 m ρ c r

/-- The previous layer's output reaches the region unchanged. -/
theorem feat_3 (c : Dev nD) : (V5 m ρ c main_v60 : S50000x256.Idx → EReal) = val_main_v94 (F := Ideal) (x0 m ρ c) (x1 m ρ c) (x2 m ρ c) (x3 m ρ c) (x4 m ρ c) (x5 m ρ c) (x6 m ρ c) (x7 m ρ c) (x8 m ρ c) (x9 m ρ c) (x10 m ρ c) (x11 m ρ c) :=
  (by show StableHlo.after hostOps2 (W4 m ρ c) (Proc.devRef .tc main_v60) = W4 m ρ c (Proc.devRef .tc main_v60)
      kept_by hostOps2 : (V5 m ρ c main_v60 : S50000x256.Idx → EReal) = W4 m ρ c (Proc.devRef .tc main_v60)).trans (out_2 m ρ c)

theorem wl_3 (c : Dev nD) : (V5 m ρ c main_arg12 : S256x256.Idx → EReal) = x12 m ρ c :=
  (by show StableHlo.after hostOps2 (W4 m ρ c) (Proc.devRef .tc main_arg12) = W4 m ρ c (Proc.devRef .tc main_arg12)
      kept_by hostOps2 : (V5 m ρ c main_arg12 : S256x256.Idx → EReal) = W4 m ρ c (Proc.devRef .tc main_arg12)).trans (atW4_arg12 m ρ c)
theorem wr_3 (c : Dev nD) : (V5 m ρ c main_arg13 : S256x256.Idx → EReal) = x13 m ρ c :=
  (by show StableHlo.after hostOps2 (W4 m ρ c) (Proc.devRef .tc main_arg13) = W4 m ρ c (Proc.devRef .tc main_arg13)
      kept_by hostOps2 : (V5 m ρ c main_arg13 : S256x256.Idx → EReal) = W4 m ρ c (Proc.devRef .tc main_arg13)).trans (atW4_arg13 m ρ c)

/-- The neighbour sums of the previous layer's output, as the reference's stage. -/
theorem agg_3 (c : Dev nD) :
    (V5 m ρ c main_v70 : S50000x256.Idx → EReal) = val_main_v112 (F := Ideal) (x0 m ρ c) (x1 m ρ c) (x2 m ρ c) (x3 m ρ c) (x4 m ρ c) (x5 m ρ c) (x6 m ρ c) (x7 m ρ c) (x8 m ρ c) (x9 m ρ c) (x10 m ρ c) (x11 m ρ c) := by
  show StableHlo.after hostOps2 (W4 m ρ c) (Proc.devRef .tc main_v70) = _
  after_results_simp
  rw [out_2 m ρ c, atW4_src m ρ c, atW4_dst m ρ c]
  rfl

/-- The bias row at (0, q). -/
theorem bias_3 (c : Dev nD) (q : Fin 256) :
    (V5 m ρ c main_v79 : S1x256.Idx → EReal) (ix2 (0 : Fin 1) q) = x14 m ρ c (ix1 q) := by
  have e : (V5 m ρ c main_v79 : S1x256.Idx → EReal)
      = shapeCast S1x256 (W4 m ρ c (Proc.devRef .tc main_arg14) : S256.Idx → EReal) shapeCasts_S256_S1x256 := by
    show StableHlo.after hostOps2 (W4 m ρ c) (Proc.devRef .tc main_v79) = _
    after_results
    rfl
  rw [e, atW4_arg14 m ρ c]
  exact Cert.Layer.row_of_vector _ _ q

/-- Row 2 of the gamma table at (0, q). -/
theorem gamma_3 (c : Dev nD) (q : Fin 256) :
    (V5 m ρ c main_v80 : S1x256.Idx → EReal) (ix2 (0 : Fin 1) q) = x2 m ρ c (ix2 (2 : Fin 3) q) := by
  have e : (V5 m ρ c main_v80 : S1x256.Idx → EReal)
      = shapeCast S1x256 (shapeCast S256 (extractStridedSlice S1x256 ![2, 0]
          (W4 m ρ c (Proc.devRef .tc main_arg2) : S3x256.Idx → EReal) slices_S3x256_S1x256_2_0) shapeCasts_S1x256_S256) shapeCasts_S256_S1x256 := by
    show StableHlo.after hostOps2 (W4 m ρ c) (Proc.devRef .tc main_v80) = _
    after_results
    rfl
  rw [e, atW4_arg2 m ρ c]
  exact Cert.Layer.row_of_table (x2 m ρ c) 2 (by decide) _ _ _ q

/-- Row 2 of the beta table at (0, q). -/
theorem beta_3 (c : Dev nD) (q : Fin 256) :
    (V5 m ρ c main_v81 : S1x256.Idx → EReal) (ix2 (0 : Fin 1) q) = x3 m ρ c (ix2 (2 : Fin 3) q) := by
  have e : (V5 m ρ c main_v81 : S1x256.Idx → EReal)
      = shapeCast S1x256 (shapeCast S256 (extractStridedSlice S1x256 ![2, 0]
          (W4 m ρ c (Proc.devRef .tc main_arg3) : S3x256.Idx → EReal) slices_S3x256_S1x256_2_0) shapeCasts_S1x256_S256) shapeCasts_S256_S1x256 := by
    show StableHlo.after hostOps2 (W4 m ρ c) (Proc.devRef .tc main_v81) = _
    after_results
    rfl
  rw [e, atW4_arg3 m ρ c]
  exact Cert.Layer.row_of_table (x3 m ρ c) 2 (by decide) _ _ _ q

/-- Row 2 of the mean table at (0, q). -/
theorem mean_3 (c : Dev nD) (q : Fin 256) :
    (V5 m ρ c main_v82 : S1x256.Idx → EReal) (ix2 (0 : Fin 1) q) = x4 m ρ c (ix2 (2 : Fin 3) q) := by
  have e : (V5 m ρ c main_v82 : S1x256.Idx → EReal)
      = shapeCast S1x256 (shapeCast S256 (extractStridedSlice S1x256 ![2, 0]
          (W4 m ρ c (Proc.devRef .tc main_arg4) : S3x256.Idx → EReal) slices_S3x256_S1x256_2_0) shapeCasts_S1x256_S256) shapeCasts_S256_S1x256 := by
    show StableHlo.after hostOps2 (W4 m ρ c) (Proc.devRef .tc main_v82) = _
    after_results
    rfl
  rw [e, atW4_arg4 m ρ c]
  exact Cert.Layer.row_of_table (x4 m ρ c) 2 (by decide) _ _ _ q

/-- Row 2 of the var table at (0, q). -/
theorem var_3 (c : Dev nD) (q : Fin 256) :
    (V5 m ρ c main_v83 : S1x256.Idx → EReal) (ix2 (0 : Fin 1) q) = x5 m ρ c (ix2 (2 : Fin 3) q) := by
  have e : (V5 m ρ c main_v83 : S1x256.Idx → EReal)
      = shapeCast S1x256 (shapeCast S256 (extractStridedSlice S1x256 ![2, 0]
          (W4 m ρ c (Proc.devRef .tc main_arg5) : S3x256.Idx → EReal) slices_S3x256_S1x256_2_0) shapeCasts_S1x256_S256) shapeCasts_S256_S1x256 := by
    show StableHlo.after hostOps2 (W4 m ρ c) (Proc.devRef .tc main_v83) = _
    after_results
    rfl
  rw [e, atW4_arg5 m ρ c]
  exact Cert.Layer.row_of_table (x5 m ρ c) 2 (by decide) _ _ _ q

/-! ## After the region -/

/-- The third layer's output array is the reference's third clamped stage of the launch arrays. -/
theorem out_3 (c : Dev nD) :
    (W6 m ρ c (Proc.devRef .tc main_v84) : S50000x256.Idx → EReal) = val_main_v136 (F := Ideal) (x0 m ρ c) (x1 m ρ c) (x2 m ρ c) (x3 m ρ c) (x4 m ρ c) (x5 m ρ c) (x6 m ρ c) (x7 m ρ c) (x8 m ρ c) (x9 m ρ c) (x10 m ρ c) (x11 m ρ c) (x12 m ρ c) (x13 m ρ c) (x14 m ρ c) := by
  refine (W6_arr m ρ c 10).trans ?_
  refine (Cert.KernelIdeal.Blocks2.final (V5 m ρ) c).trans ?_
  rw [Cert.ReferenceIdeal.RefValue.layer3]
  refine (Cert.Layer.regionOut_eq_layer _ _ _ _ _ _ _ _ _ _ (val_main_v7 (F := Ideal) (x1 m ρ c)) (x14 m ρ c) (x2 m ρ c) (x3 m ρ c)
    (x4 m ρ c) (x5 m ρ c) 2 (invdeg_3 m ρ c) (bias_3 m ρ c) (gamma_3 m ρ c) (beta_3 m ρ c) (mean_3 m ρ c) (var_3 m ρ c)).trans ?_
  rw [agg_3 m ρ c, feat_3 m ρ c, wl_3 m ρ c, wr_3 m ρ c]

end Cert.KernelIdeal.Fold

end
-- ==== Proof.KernelValue.lean ====
/-
  The idealized kernel's run, with its result named.

  Every weakly fair execution of the kernel's @main terminates without a fault; the result array ends holding the
  third layer's output, which — layer by layer — is the reference's last clamped stage of the launch arrays; and the
  fifteen argument arrays end as launched.
-/
import proofs.«175303_j45896020525700_1_alg».proof.Proof.KernelRun
import proofs.«175303_j45896020525700_1_alg».proof.Proof.Fold2

noncomputable section

namespace Cert.KernelIdeal.Fold

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- The result of three layers on core `c`, as the reference's last stage function of the launch arrays. -/
def result (c : Dev nD) : S50000x256.Idx → EReal :=
  val_main_v136 (F := Ideal) (x0 m ρ c) (x1 m ρ c) (x2 m ρ c) (x3 m ρ c) (x4 m ρ c) (x5 m ρ c) (x6 m ρ c) (x7 m ρ c) (x8 m ρ c) (x9 m ρ c) (x10 m ρ c) (x11 m ρ c) (x12 m ρ c) (x13 m ρ c) (x14 m ρ c)

theorem run_value : θ_run defs (onTc (τ := τ) (main (F := Ideal))) ⟨m, fun _ => 0, ρ⟩ (fun r => ∀ c : Dev nD,
      r.2.mem ((c.tc : Thread nD τ).loc main_v84) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out_3 m ρ c), (h c).2⟩) (Cert.KernelIdeal.WholeRun.run_result m ρ)

end Cert.KernelIdeal.Fold

end
-- ==== Proof.lean ====
/-
  Three layers of mean-aggregation graph convolution with a per-channel affine normalisation and a clamp at zero: the
  tiled kernel against the whole-array reference, as extended reals.

  Each layer gathers the node features by edge source, sums them by edge destination, scales node r's sum by the
  reciprocal of d(r) = max(number of edges ending at r, 1), multiplies by one weight matrix, adds the node's own
  features times a second weight matrix and a bias, subtracts a running mean, multiplies by rsqrt(running variance + ε)
  and a scale, adds a shift and clamps at zero. The kernel computes 1/d once on the host and, per block of 2000 rows,
  multiplies the block of sums by the block of 1/d before the two matrix products; the reference divides the whole
  array of sums by d. Over the extended reals the two agree entry by entry: d ≥ 1 is never zero, so x / d and
  x · (1/d) are both x · d⁻¹ for every x, finite or not; a change of float format is the identity; a block of rows of a
  matrix product is the product of the block of rows; and the 25 row blocks tile the 50000 rows. The host operations
  between the layers (the gather, the scatter-add, the slices of the parameter tables) are the same in both programs.

  The three frame claims are the generated frames (the reference's is its generated run with the result dropped); no
  rewrite was applied by the idealization, so its preservation claim is trivial; the equivalence is the two runs side
  by side, both results being the reference's last stage function of the arguments, on which the memories agree.
-/
import proofs.«175303_j45896020525700_1_alg».proof.Defs
import proofs.«175303_j45896020525700_1_alg».proof.Proof.Gen.Kernel
import proofs.«175303_j45896020525700_1_alg».proof.Proof.Gen.Kernel.Frame
import proofs.«175303_j45896020525700_1_alg».proof.Proof.Gen.KernelIdeal
import proofs.«175303_j45896020525700_1_alg».proof.Proof.Gen.KernelIdeal.Frame
import proofs.«175303_j45896020525700_1_alg».proof.Proof.Gen.ReferenceIdeal
import proofs.«175303_j45896020525700_1_alg».proof.Proof.Gen.ReferenceIdeal.Run
import proofs.«175303_j45896020525700_1_alg».proof.Proof.Gen.ReferenceIdeal.Read
import proofs.«175303_j45896020525700_1_alg».proof.Proof.Gen.Pre_finite_inputs
import proofs.«175303_j45896020525700_1_alg».proof.Proof.KernelValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two idealized programs, run from memories that agree on the arguments, end with the same result array: the
    kernel's is the reference's last stage function of its launch arrays (the three layers, block by block), the
    reference's is that function of its own launch arrays, and the launch arrays agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Fold.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v136_eq, h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
